-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x800000 : Shape := ⟨2, ![2, 800000]⟩
abbrev S1433x64 : Shape := ⟨2, ![1433, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x64 : S_.BroadcastsInDim S1433x64 (![] : Fin 0 → Fin S1433x64.rank)
  reducesTo_S1433x64_S_d0_1 : S1433x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_arg7 : FVec F S64x32 .f32) (main_v13 : IVec S_ 1) (main_v16 : IVec S1433x64 1) : IVec S_ 1 :=
  let main_c_5 : IVec S_ 1 := constantI S_ 1 1#1
  let main_v17 : IVec S_ 1 := (fun x v => Host.reduce IntOp.andi x v reducesTo_S1433x64_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S50000x1433 .f32) (main_arg1 : IVec S2x800000 32) (main_arg2 : FVec F S1433x64 .f32) (main_arg3 : FVec F S64 .f32) (main_arg4 : FVec F S1433x64 .f32) (main_arg5 : FVec F S64x32 .f32) (main_arg6 : FVec F S32 .f32) (main_arg7 : FVec F S64x32 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x64 .f32 := Host.absf main_arg2
  let main_cst_0 : FVec F S_ .f32 := constant S_ .f32 0x7F800000#32
  let main_v5 : FVec F S1433x64 .f32 := broadcastInDim S1433x64 ![] bcast_S_S1433x64 main_cst_0
  let main_v6 : IVec S1433x64 1 := cmpf .olt main_v4 main_v5
  let main_c_1 : IVec S_ 1 := constantI S_ 1 1#1
  let main_v7 : IVec S_ 1 := (fun x v => Host.reduce IntOp.andi x v reducesTo_S1433x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1433x64 .f32 := Host.absf main_arg4
  let main_cst_4 : FVec F S_ .f32 := constant S_ .f32 0x7F800000#32
  let main_v15 : FVec F S1433x64 .f32 := broadcastInDim S1433x64 ![] bcast_S_S1433x64 main_cst_4
  let main_v16 : IVec S1433x64 1 := cmpf .olt main_v14 main_v15
  fn_part1 (F := F) main_arg5 main_arg6 main_arg7 main_v13 main_v16
-- ==== Kernel.lean ====
abbrev S50000x1433 : Shape := ⟨2, ![50000, 1433]⟩
abbrev S2x800000 : Shape := ⟨2, ![2, 800000]⟩
abbrev S1433x64 : Shape := ⟨2, ![1433, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1433x128 : Shape := ⟨2, ![1433, 128]⟩
abbrev S50000x128 : Shape := ⟨2, ![50000, 128]⟩
abbrev S2000x1433 : Shape := ⟨2, ![2000, 1433]⟩
abbrev S2000x128 : Shape := ⟨2, ![2000, 128]⟩
abbrev S50000x64 : Shape := ⟨2, ![50000, 64]⟩
abbrev S800000x64 : Shape := ⟨2, ![800000, 64]⟩
abbrev S1x64 : Shape := ⟨2, ![1, 64]⟩
abbrev S64x64 : Shape := ⟨2, ![64, 64]⟩
abbrev S2000x64 : Shape := ⟨2, ![2000, 64]⟩
abbrev S2000x1 : Shape := ⟨2, ![2000, 1]⟩
abbrev S50000x32 : Shape := ⟨2, ![50000, 32]⟩
abbrev S800000x32 : Shape := ⟨2, ![800000, 32]⟩
abbrev S1x32 : Shape := ⟨2, ![1, 32]⟩
abbrev S2000x32 : Shape := ⟨2, ![2000, 32]⟩
abbrev S2000 : Shape := ⟨1, ![2000]⟩

abbrev nBuf : Space → Nat
  | .hbm => 69
  | .vmem => 24
  | .smem => 0
  | _ => 0

abbrev bufTy : (tb : Table) → Fin (tcTables nBuf tb) → BufTy
  | .hbm, ⟨0, _⟩ => ⟨S50000x1433, .f32⟩
  | .hbm, ⟨1, _⟩ => ⟨S2x800000, .i32⟩
  | .hbm, ⟨2, _⟩ => ⟨S1433x64, .f32⟩
  | .hbm, ⟨3, _⟩ => ⟨S64, .f32⟩
  | .hbm, ⟨4, _⟩ => ⟨S1433x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S1433x128, .f32⟩
  | .hbm, ⟨33, _⟩ => ⟨S50000x128, .f32⟩
  | .hbm, ⟨34, _⟩ => ⟨S50000x64, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S1x64, .f32⟩
  | .hbm, ⟨50, _⟩ => ⟨S64x64, .f32⟩
  | .hbm, ⟨51, _⟩ => ⟨S50000x64, .f32⟩
  | .hbm, ⟨52, _⟩ => ⟨S50000x32, .f32⟩
  | .hbm, ⟨53, _⟩ => ⟨S50000x32, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x32, .f32⟩
  | .hbm, ⟨63, _⟩ => ⟨S_, .f32⟩
  | .hbm, ⟨64, _⟩ => ⟨S50000x32, .f32⟩
  | .hbm, ⟨65, _⟩ => ⟨S800000x1, .i32⟩
  | .hbm, ⟨66, _⟩ => ⟨S50000x32, .f32⟩
  | .hbm, ⟨67, _⟩ => ⟨S1x32, .f32⟩
  | .hbm, ⟨68, _⟩ => ⟨S50000x32, .f32⟩
  | .local _ .vmem, ⟨0, _⟩ => ⟨S2000x1433, .f32⟩
  | .local _ .vmem, ⟨1, _⟩ => ⟨S2000x1433, .f32⟩
  | .local _ .vmem, ⟨2, _⟩ => ⟨S1433x128, .f32⟩
  | .local _ .vmem, ⟨3, _⟩ => ⟨S2000x128, .f32⟩
  | .local _ .vmem, ⟨4, _⟩ => ⟨S2000x128, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x1, .f32⟩
  | .local _ .vmem, ⟨20, _⟩ => ⟨S2000x1, .f32⟩
  | .local _ .vmem, ⟨21, _⟩ => ⟨S1x32, .f32⟩
  | .local _ .vmem, ⟨22, _⟩ => ⟨S2000x32, .f32⟩
  | .local _ .vmem, ⟨23, _⟩ => ⟨S2000x32, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  concatenates_S1433x64_S1433x64_S1433x128_d1 : Shape.Concatenates [S1433x64, S1433x64] S1433x128 1
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x128_S1433x128_0_0 : ∀ a, (![0, 0] : Fin 2 → Nat) a + S1433x128.size a ≤ S1433x128.size a
  h_S1433x128 : 0 < S1433x128.numel
  shapeCasts_S1433x128_S1433x128 : S1433x128.ShapeCasts S1433x128
  inb_S2000x128_S2000x128_0_0 : ∀ a, (![0, 0] : Fin 2 → Nat) a + S2000x128.size a ≤ S2000x128.size a
  h_S2000x128 : 0 < S2000x128.numel
  slices_S50000x128_S50000x64_0_0 : S50000x128.Slices ![0, 0] S50000x64
  slices_S50000x128_S50000x64_0_64 : S50000x128.Slices ![0, 64] S50000x64
  bcast_S_S50000x64 : S_.BroadcastsInDim S50000x64 (![] : Fin 0 → Fin S50000x64.rank)
  shapeCasts_S64_S1x64 : S64.ShapeCasts S1x64
  concatenates_S64x32_S64x32_S64x64_d1 : Shape.Concatenates [S64x32, S64x32] S64x64 1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S50000x64_S50000x32_0_0 : S50000x64.Slices ![0, 0] S50000x32
  slices_S50000x64_S50000x32_0_32 : S50000x64.Slices ![0, 32] S50000x32
  bcast_S_S50000x32 : S_.BroadcastsInDim S50000x32 (![] : Fin 0 → Fin S50000x32.rank)
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  scatter_S50000_S800000x1_S800000_n_0_0_1_wf : ScatterDims.WF S50000 S800000x1 S800000 [] [0] [0] 1
  dot_S2000x1433_S1433x128_S2000x128_1_0_0_1_n_n_wf : DotDims.WF S2000x1433 S1433x128 S2000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S50000x1433.size a
  hwx0_0 : ∀ i : grid0.Coords, EltTy.bits .f32 = 32 ∨ (Rect.block (s := S50000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x128.size a ≤ S1433x128.size a
  hwx0_1 : ∀ i : grid0.Coords, EltTy.bits .f32 = 32 ∨ (Rect.block (s := S1433x128) S1433x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S50000x32.size a
  hwx2_0 : ∀ i : grid2.Coords, EltTy.bits .f32 = 32 ∨ (Rect.block (s := S50000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S50000x32.size a
  hwx2_1 : ∀ i : grid2.Coords, EltTy.bits .f32 = 32 ∨ (Rect.block (s := S50000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x32.size a ≤ S50000x32.size a
  hwx2_4 : ∀ i : grid2.Coords, EltTy.bits .f32 = 32 ∨ (Rect.block (s := S50000x32) S2000x32.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x1433_S1433x128_S2000x128_1_0_0_1_n_n : DotDims S2000x1433 S1433x128 S2000x128 where
  lhsContracting := [1]
  rhsContracting := [0]
  lhsNonContracting := [0]
  rhsNonContracting := [1]
  lhsBatch := []
  rhsBatch := []
  wf := dot_S2000x1433_S1433x128_S2000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1433x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S2000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x1433 : Shape := ⟨2, ![50000, 1433]⟩
abbrev S2x800000 : Shape := ⟨2, ![2, 800000]⟩
abbrev S1433x64 : Shape := ⟨2, ![1433, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 110
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S2x800000, .i32⟩
  | .hbm, ⟨2, _⟩ => ⟨S1433x64, .f32⟩
  | .hbm, ⟨3, _⟩ => ⟨S64, .f32⟩
  | .hbm, ⟨4, _⟩ => ⟨S1433x64, .f32⟩
  | .hbm, ⟨5, _⟩ => ⟨S64x32, .f32⟩
  | .hbm, ⟨6, _⟩ => ⟨S32, .f32⟩
  | .hbm, ⟨7, _⟩ => ⟨S64x32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x64, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .i1⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S_, .f32⟩
  | .hbm, ⟨43, _⟩ => ⟨S_, .f32⟩
  | .hbm, ⟨44, _⟩ => ⟨S50000x64, .i1⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S50000x32, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x32, .f32⟩
  | .hbm, ⟨62, _⟩ => ⟨S_, .f32⟩
  | .hbm, ⟨63, _⟩ => ⟨S50000x32, .f32⟩
  | .hbm, ⟨64, _⟩ => ⟨S800000x1, .i32⟩
  | .hbm, ⟨65, _⟩ => ⟨S50000x32, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S50000x1, .f32⟩
  | .hbm, ⟨73, _⟩ => ⟨S_, .f32⟩
  | .hbm, ⟨74, _⟩ => ⟨S50000x1, .f32⟩
  | .hbm, ⟨75, _⟩ => ⟨S50000x1, .i1⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x32, .f32⟩
  | .hbm, ⟨81, _⟩ => ⟨S50000x32, .f32⟩
  | .hbm, ⟨82, _⟩ => ⟨S_, .f32⟩
  | .hbm, ⟨83, _⟩ => ⟨S_, .f32⟩
  | .hbm, ⟨84, _⟩ => ⟨S50000x32, .i1⟩
  | .hbm, ⟨85, _⟩ => ⟨S50000x32, .f32⟩
  | .hbm, ⟨86, _⟩ => ⟨S50000x32, .f32⟩
  | .hbm, ⟨87, _⟩ => ⟨S1x32, .f32⟩
  | .hbm, ⟨88, _⟩ => ⟨S50000x32, .f32⟩
  | .hbm, ⟨89, _⟩ => ⟨S50000x32, .f32⟩
  | .hbm, ⟨90, _⟩ => ⟨S50000x32, .f32⟩
  | .hbm, ⟨91, _⟩ => ⟨S50000x32, .f32⟩
  | .hbm, ⟨92, _⟩ => ⟨S_, .f32⟩
  | .hbm, ⟨93, _⟩ => ⟨S50000x32, .f32⟩
  | .hbm, ⟨94, _⟩ => ⟨S50000x32, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S50000x1, .f32⟩
  | .hbm, ⟨101, _⟩ => ⟨S50000x32, .f32⟩
  | .hbm, ⟨102, _⟩ => ⟨S50000x32, .f32⟩
  | .hbm, ⟨103, _⟩ => ⟨S50000x32, .f32⟩
  | .hbm, ⟨104, _⟩ => ⟨S_, .f32⟩
  | .hbm, ⟨105, _⟩ => ⟨S50000, .f32⟩
  | .hbm, ⟨106, _⟩ => ⟨S50000x1, .f32⟩
  | .hbm, ⟨107, _⟩ => ⟨S50000x1, .f32⟩
  | .hbm, ⟨108, _⟩ => ⟨S50000x32, .f32⟩
  | .hbm, ⟨109, _⟩ => ⟨S50000x32, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call2_cst : Ref sig .tc := ⟨.hbm, 92, rfl⟩
abbrev main_call2_v0 : Ref sig .tc := ⟨.hbm, 93, rfl⟩
abbrev main_v62 : Ref sig .tc := ⟨.hbm, 94, rfl⟩
abbrev main_call3_cst : Ref sig .tc := ⟨.hbm, 95, rfl⟩
abbrev main_call3_v0 : Ref sig .tc := ⟨.hbm, 96, rfl⟩
abbrev main_call3_cst_0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_cst_1 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_v63 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  dot_S50000x1433_S1433x64_S50000x64_1_0_0_1_n_n_wf : DotDims.WF S50000x1433 S1433x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def dot_S50000x1433_S1433x64_S50000x64_1_0_0_1_n_n : DotDims S50000x1433 S1433x64 S50000x64 where
  lhsContracting := [1]
  rhsContracting := [0]
  lhsNonContracting := [0]
  rhsNonContracting := [1]
  lhsBatch := []
  rhsBatch := []
  wf := dot_S50000x1433_S1433x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.KernelRun.lean ====
/-
  The idealized kernel's whole run, with its result array read.

  The program is three tiled passes over the node rows with stretches of whole-array operations between them.
  Every weakly fair execution ends, without a fault, with the argument arrays as they were at launch and with
  the result array holding what the third pass's write-backs leave: the contents `W8` of the last boundary of
  the run, read at the result's buffer.
-/
import proofs.«125611_j42296837931009_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's
    contents and the eight argument arrays end as launched. -/
theorem run : θ_run defs (onTc (τ := τ) (main (F := F))) ⟨m, fun _ => 0, ρ⟩ (fun r => ∀ c : Dev nD,
      r.2.mem ((c.tc : Thread nD τ).loc main_v46) = W8 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«125611_j42296837931009_2_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.Spec.lean ====
/-
  The scalar forms both programs are read in, on the extended reals.

  A node of in-degree `D` averages its incoming messages: the aggregated sum `a` is divided by `max D 1`
  where `D > 0` and replaced by zero elsewhere; a bias `b` and the node's own projection `x` are added. One
  program multiplies `a` by the chosen reciprocal, the other chooses between the quotient and zero. For a
  real degree the two agree at every extended real `a`: `a / d = a · (1/d)` for a real `d ≠ 0`, and
  `a · 0 = 0`. The last layer is followed by the row-wise log-soft-max of the rectified values.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The single-precision patterns of zero, one and minus infinity, kept as words. -/
abbrev zeroW : EReal := Ideal.ofBits .f32 0x00000000#32
abbrev oneW : EReal := Ideal.ofBits .f32 0x3F800000#32
abbrev negInfW : EReal := Ideal.ofBits .f32 0xFF800000#32

theorem zeroW_eq : zeroW = 0 := Ideal.ofBits_zero_f32

theorem oneW_eq : oneW = 1 := by
  simp [oneW, Ideal.ofBits, Ideal.ieee]
  have h : ((8388608 : ℝ) * ((2 : ℝ) ^ 23)⁻¹) = 1 := by norm_num
  exact_mod_cast h

/-- The multiplier of a node of in-degree `D`: `1 / max D 1` where `D > 0`, zero elsewhere. -/
def invDeg (D : EReal) : EReal :=
  Scalar.select (Ideal.cmp .ogt D zeroW) (Ideal.div oneW (max D oneW)) zeroW

/-- Aggregate times the multiplier, plus bias, plus the node's own term. -/
def mixMul (a b x D : EReal) : EReal := (a * invDeg D + b) + x

/-- The quotient where `D > 0` and zero elsewhere, plus bias, plus the node's own term. -/
def mixDiv (a b x D : EReal) : EReal :=
  (Scalar.select (Ideal.cmp .ogt D zeroW) (Ideal.div a (max D oneW)) zeroW + b) + x

/-- For a real in-degree the two forms agree, whatever extended reals the other entries are. -/
theorem mixMul_eq_mixDiv (a b x D : EReal) (hD : ∃ r : ℝ, D = (r : EReal)) : mixMul a b x D = mixDiv a b x D := by
  obtain ⟨r, rfl⟩ := hD
  have hne : (max r 1 : ℝ) ≠ 0 := (lt_of_lt_of_le zero_lt_one (le_max_right r 1)).ne'
  have hmax : max ((r : ℝ) : EReal) oneW = ((max r 1 : ℝ) : EReal) := by
    rw [oneW_eq, ← EReal.coe_one]; exact (EReal.coe_strictMono.monotone.map_max).symm
  unfold mixMul mixDiv invDeg Scalar.select
  rw [hmax, Ideal.div_coe hne, Ideal.div_coe hne]
  split
  · rw [oneW_eq, one_mul]
  · rw [zeroW_eq, mul_zero]

/-- The log-soft-max of a row: shift by the row's maximum (folded from minus infinity), subtract the logarithm of
    the sum of the exponentials of the shifted row. -/
def logSoftmaxRow {n : ℕ} (h : Fin n → EReal) (j : Fin n) : EReal :=
  (h j - (Finset.univ : Finset (Fin n)).fold max negInfW h)
    - Ideal.log (∑ c : Fin n, Ideal.exp (h c - (Finset.univ : Finset (Fin n)).fold max negInfW h))

end Cert.Sage

end
-- ==== Proof.Payloads.lean ====
/-
  What each of the three passes stores, read at one entry of its tile, on the extended reals.

  The first pass stores a tile of rows times the whole weight matrix: entry `(p, q)` is the sum over `k` of
  `x (p, k) · w (k, q)` (a change of float format is the identity here, and the product accumulates into zero).
  The second pass first mixes, entry by entry, the aggregated messages times the node's multiplier, plus the
  bias row, plus the node's own projection, and multiplies that tile by the whole second weight matrix. The
  third pass mixes the same way, rectifies, and takes the log-soft-max of each row of the tile: the row's
  maximum folded from minus infinity, the shifted row, the logarithm of the sum of its exponentials.
-/
import proofs.«125611_j42296837931009_2_alg».proof.Proof.Gen.KernelIdeal.Skeleton
import proofs.«125611_j42296837931009_2_alg».proof.Proof.LibPlainMatmul
import proofs.«125611_j42296837931009_2_alg».proof.Proof.LibRowMax
import proofs.«125611_j42296837931009_2_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Cert.Sage
open Idealize.ShloMosaic Idealize.ShloMosaic.ValueIdx

/-- The first pass's tile: rows of `x` times the weight matrix. -/
theorem pay0_at (x0 : Vec Ideal S2000x1433 .f32) (x1 : Vec Ideal S1433x128 .f32) (p : Fin 2000) (q : Fin 128) :
    k0_pay1 (F := Ideal) x0 x1 (ix2 p q) = ∑ k : Fin 1433, x0 (ix2 p k) * x1 (ix2 k q) := by
  unfold k0_pay1
  refine (Cert.LibPlainMatmul.matmul_zero_apply dot_S2000x1433_S1433x128_S2000x128_1_0_0_1_n_n rfl rfl rfl rfl rfl rfl
    none _ _ p q).trans ?_
  refine Finset.sum_congr rfl fun k _ => ?_
  rw [truncf_apply, truncf_apply, shapeCast_self]

/-- The mix of one entry: aggregate times the row's multiplier, plus the bias, plus the node's own term. -/
theorem mix_at {n : ℕ} (hn : n ≠ 1) (v0 v10 : FVec Ideal ⟨2, ![2000, n]⟩ .f32) (v2 : FVec Ideal ⟨2, ![2000, 1]⟩ .f32)
    (v6 : FVec Ideal ⟨2, ![1, n]⟩ .f32)
    (h0 : (⟨2, ![2000, n]⟩ : Shape).ShapeCasts ⟨2, ![2000, n]⟩) (h2 : (⟨2, ![2000, 1]⟩ : Shape).ShapeCasts ⟨2, ![2000, 1]⟩)
    (h6 : (⟨2, ![1, n]⟩ : Shape).ShapeCasts ⟨2, ![1, n]⟩)
    (b2 : (⟨2, ![2000, 1]⟩ : Shape).Broadcasts ⟨2, ![2000, n]⟩) (b6 : (⟨2, ![1, n]⟩ : Shape).Broadcasts ⟨2, ![2000, n]⟩)
    (p : Fin 2000) (k : Fin n) :
    addf (addf (mulf (shapeCast ⟨2, ![2000, n]⟩ v0 h0) (broadcastTo ⟨2, ![2000, n]⟩ (shapeCast ⟨2, ![2000, 1]⟩ v2 h2) b2))
        (broadcastTo ⟨2, ![2000, n]⟩ (shapeCast ⟨2, ![1, n]⟩ v6 h6) b6)) (shapeCast ⟨2, ![2000, n]⟩ v10 h0) (ix2 p k)
      = (v0 (ix2 p k) * v2 (ix2 p 0) + v6 (ix2 0 k)) + v10 (ix2 p k) := by
  rw [addf_apply, addf_apply, mulf_apply, Cert.Rows.bcast_col (by decide), Cert.Rows.bcast_row hn]
  simp only [shapeCast_self]

/-- The second pass's tile: the mixed rows times the second weight matrix. -/
theorem pay1_at (v0 : Vec Ideal S2000x64 .f32) (v2 : Vec Ideal S2000x1 .f32) (v6 : Vec Ideal S1x64 .f32)
    (v10 : Vec Ideal S2000x64 .f32) (v14 : Vec Ideal S64x64 .f32) (p : Fin 2000) (q : Fin 64) :
    k1_pay1 (F := Ideal) v0 v2 v6 v10 v14 (ix2 p q)
      = ∑ k : Fin 64, ((v0 (ix2 p k) * v2 (ix2 p 0) + v6 (ix2 0 k)) + v10 (ix2 p k)) * v14 (ix2 k q) := by
  unfold k1_pay1
  refine (Cert.LibPlainMatmul.matmul_zero_apply dot_S2000x64_S64x64_S2000x64_1_0_0_1_n_n rfl rfl rfl rfl rfl rfl
    none _ _ p q).trans ?_
  refine Finset.sum_congr rfl fun k _ => ?_
  refine congrArg₂ (· * ·) ?_ ?_
  · exact mix_at (by decide) v0 v10 v2 v6 _ _ _ _ _ p k
  · show shapeCast S64x64 v14 shapeCasts_S64x64_S64x64 (ix2 k q) = v14 (ix2 k q)
    rw [shapeCast_self]

/-- The row-wise log-soft-max of a tile, entry `(p, q)`: from the row's entries alone. -/
theorem logSoftmax_tile (h : FVec Ideal S2000x32 .f32) (p : Fin 2000) (q : Fin 32) :
    subf (subf h (broadcastTo S2000x32 (shapeCast S2000x1 (multiReduction .maximumf [1] S2000 h 0xFF800000#32
        reduces_S2000x32_S2000 (.inl rfl) rfl) shapeCasts_S2000_S2000x1) broadcasts_S2000x1_S2000x32))
      (broadcastTo S2000x32 (log (shapeCast S2000x1 (multiReduction .add [1] S2000 (exp (subf h (broadcastTo S2000x32
        (shapeCast S2000x1 (multiReduction .maximumf [1] S2000 h 0xFF800000#32 reduces_S2000x32_S2000 (.inl rfl) rfl)
          shapeCasts_S2000_S2000x1) broadcasts_S2000x1_S2000x32))) 0x00000000#32 reduces_S2000x32_S2000 (.inl rfl) rfl)
        shapeCasts_S2000_S2000x1)) broadcasts_S2000x1_S2000x32) (ix2 p q)
      = logSoftmaxRow (fun c : Fin 32 => h (ix2 p c)) q := by
  have hmax : ∀ r : Fin 2000, ∀ c : Fin 32,
      broadcastTo S2000x32 (shapeCast S2000x1 (multiReduction .maximumf [1] S2000 h 0xFF800000#32
        reduces_S2000x32_S2000 (.inl rfl) rfl) shapeCasts_S2000_S2000x1) broadcasts_S2000x1_S2000x32 (ix2 r c)
      = (Finset.univ : Finset (Fin 32)).fold max negInfW (fun c => h (ix2 r c)) := fun r c => by
    rw [Cert.Rows.bcast_col (by decide), Cert.Rows.cast_col]
    exact Cert.LibRowMax.rowMax_apply (m := 2000) (n := 32) h _ reduces_S2000x32_S2000 (.inl rfl) rfl r
  have hsum : ∀ r : Fin 2000,
      multiReduction .add [1] S2000 (exp (subf h (broadcastTo S2000x32
        (shapeCast S2000x1 (multiReduction .maximumf [1] S2000 h 0xFF800000#32 reduces_S2000x32_S2000 (.inl rfl) rfl)
          shapeCasts_S2000_S2000x1) broadcasts_S2000x1_S2000x32))) 0x00000000#32 reduces_S2000x32_S2000 (.inl rfl) rfl (ix1 r)
      = ∑ c : Fin 32, Ideal.exp (h (ix2 r c) - (Finset.univ : Finset (Fin 32)).fold max negInfW (fun c => h (ix2 r c))) := fun r => by
    refine (Ideal.multiReduction_add_single _ _ reduces_S2000x32_S2000 _ rfl (ix1 r)).trans ?_
    refine Finset.sum_congr rfl fun k _ => ?_
    rw [Cert.Rows.lift_row reduces_S2000x32_S2000 r k]
    show Ideal.exp (subf h _ (ix2 r ⟨k.val, k.isLt⟩)) = _
    rw [subf_apply, hmax]
    rfl
  rw [subf_apply, subf_apply, hmax, Cert.Rows.bcast_col (by decide)]
  show _ - Ideal.log (shapeCast S2000x1 _ shapeCasts_S2000_S2000x1 (ix2 p 0)) = _
  rw [Cert.Rows.cast_col, hsum]
  rfl

/-- The third pass's tile: mix, rectify, log-soft-max of each row. -/
theorem pay2_at (v0 : Vec Ideal S2000x32 .f32) (v2 : Vec Ideal S2000x1 .f32) (v6 : Vec Ideal S1x32 .f32)
    (v10 : Vec Ideal S2000x32 .f32) (p : Fin 2000) (q : Fin 32) :
    k2_pay1 (F := Ideal) v0 v2 v6 v10 (ix2 p q)
      = logSoftmaxRow (fun c : Fin 32 => max ((v0 (ix2 p c) * v2 (ix2 p 0) + v6 (ix2 0 c)) + v10 (ix2 p c)) zeroW) q := by
  unfold k2_pay1
  refine (logSoftmax_tile _ p q).trans ?_
  refine congrArg (logSoftmaxRow · q) (funext fun c => ?_)
  rw [maximumf_apply, mix_at (by decide) v0 v10 v2 v6 _ _ _ _ _ p c]
  rfl

end Cert.KernelIdeal.Tile

end
-- ==== Proof.Regions.lean ====
/-
  From tiles to whole arrays: what each pass leaves in its output array, as one function of the arrays it reads.

  Each pass walks the 25 tiles of 2000 node rows. Tile `t` of a row-tiled array is rows `2000 t … 2000 t + 1999`;
  the weight and bias operands are read whole at every tile. An entry of the output in row `r` is written by tile
  `r / 2000` and depends on row `r` of the row-tiled operands only, so the output array is, entry by entry: for
  the first pass the product of the features with the weight matrix; for the second the product of the mixed
  rows with the second weight matrix; for the third the log-soft-max of the rectified mixed row. The 25 tiles
  cover all 50000 rows, so these hold at every entry.
-/
import proofs.«125611_j42296837931009_2_alg».proof.Proof.Gen.KernelIdeal.Frame
import proofs.«125611_j42296837931009_2_alg».proof.Proof.Payloads
import Idealize.ShloMosaic.Lib.Pipeline.Value

set_option maxRecDepth 16384

noncomputable section

namespace Cert.KernelIdeal.Pass

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `p` of tile `t` is row `2000 t + p` of the array. -/
def rowOf (t : ℕ) (ht : t < 25) (p : Fin 2000) : Fin 50000 := ⟨t * 2000 + p.val, by have := p.isLt; omega⟩

/-! ## The outputs as functions of the arrays read -/

/-- Features times weights. -/
def prod0 (X : S50000x1433.Idx → EReal) (W : S1433x128.Idx → EReal) : S50000x128.Idx → EReal :=
  fun i => ∑ k : Fin 1433, X (ix2 (i 0) k) * W (ix2 k (i 1))

/-- The mixed rows times the second weights. -/
def prod1 (A X : S50000x64.Idx → EReal) (Dc : S50000x1.Idx → EReal) (B : S1x64.Idx → EReal) (W : S64x64.Idx → EReal) :
    S50000x64.Idx → EReal :=
  fun i => ∑ k : Fin 64, ((A (ix2 (i 0) k) * Dc (ix2 (i 0) 0) + B (ix2 0 k)) + X (ix2 (i 0) k)) * W (ix2 k (i 1))

/-- The log-soft-max of the rectified mixed row. -/
def out2 (A X : S50000x32.Idx → EReal) (Dc : S50000x1.Idx → EReal) (B : S1x32.Idx → EReal) : S50000x32.Idx → EReal :=
  fun i => logSoftmaxRow (fun c : Fin 32 => max ((A (ix2 (i 0) c) * Dc (ix2 (i 0) 0) + B (ix2 0 c)) + X (ix2 (i 0) c)) zeroW) (i 1)

/-! ## Where each window's tile sits -/

theorem idx0_0 : ∀ t : Fin cfg0.N, win0_0.index t (0 : Fin 2) = t.val ∧ win0_0.index t (1 : Fin 2) = 0 :=
  (by decide +kernel : ∀ t : Fin grid0.N, _)

theorem idx0_1 : ∀ t : Fin cfg0.N, win0_1.index t (0 : Fin 2) = 0 ∧ win0_1.index t (1 : Fin 2) = 0 :=
  (by decide +kernel : ∀ t : Fin grid0.N, _)

theorem idx0_2 : ∀ t : Fin cfg0.N, win0_2.index t (0 : Fin 2) = t.val ∧ win0_2.index t (1 : Fin 2) = 0 :=
  (by decide +kernel : ∀ t : Fin grid0.N, _)

theorem idx1_0 : ∀ t : Fin cfg1.N, win1_0.index t (0 : Fin 2) = t.val ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = t.val ∧ win1_2.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

theorem idx1_5 : ∀ t : Fin cfg1.N, win1_5.index t (0 : Fin 2) = t.val ∧ win1_5.index t (1 : Fin 2) = 0 :=
  (by decide +kernel : ∀ t : Fin grid1.N, _)

theorem idx2_0 : ∀ t : Fin cfg2.N, win2_0.index t (0 : Fin 2) = t.val ∧ win2_0.index t (1 : Fin 2) = 0 :=
  (by decide +kernel : ∀ t : Fin grid2.N, _)

theorem idx2_1 : ∀ t : Fin cfg2.N, win2_1.index t (0 : Fin 2) = t.val ∧ win2_1.index t (1 : Fin 2) = 0 :=
  (by decide +kernel : ∀ t : Fin grid2.N, _)

theorem idx2_2 : ∀ t : Fin cfg2.N, win2_2.index t (0 : Fin 2) = t.val ∧ win2_2.index t (1 : Fin 2) = 0 :=
  (by decide +kernel : ∀ t : Fin grid2.N, _)

theorem idx2_3 : ∀ t : Fin cfg2.N, win2_3.index t (0 : Fin 2) = 0 ∧ win2_3.index t (1 : Fin 2) = 0 :=
  (by decide +kernel : ∀ t : Fin grid2.N, _)

theorem idx2_4 : ∀ t : Fin cfg2.N, win2_4.index t (0 : Fin 2) = t.val ∧ win2_4.index t (1 : Fin 2) = 0 :=
  (by decide +kernel : ∀ t : Fin grid2.N, _)

/-! ## The input tiles read off their arrays -/

theorem iblk0_0_at (c : Dev nD) (t : Fin cfg0.N) (y : S2000x1433.Idx) (i : S50000x1433.Idx)
    (h0 : (i 0).val = t.val * 2000 + (y 0).val) (h1 : (i 1).val = (y 1).val) :
    (iblk0 V c 0 t : Vec Ideal S2000x1433 .f32) y = (V c main_arg0 : S50000x1433.Idx → EReal) i := by
  obtain ⟨e0, e1⟩ := idx0_0 t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e0, h0]; omega
  | ⟨1, _⟩ => show win0_0.index t 1 * 1433 + 1 * (y 1).val = (i 1).val; rw [e1, h1]; omega

theorem iblk0_1_at (c : Dev nD) (t : Fin cfg0.N) (y : S1433x128.Idx) :
    (iblk0 V c 1 t : Vec Ideal S1433x128 .f32) y = (V c main_v16 : S1433x128.Idx → EReal) y := by
  obtain ⟨e0, e1⟩ := idx0_1 t
  unfold iblk0
  rw [View.read_apply]
  show V c main_v16 _ = V c main_v16 _
  congr 1
  funext a
  apply Fin.ext
  match a with
  | ⟨0, _⟩ => show win0_1.index t 0 * 1433 + 1 * (y 0).val = (y 0).val; rw [e0]; omega
  | ⟨1, _⟩ => show win0_1.index t 1 * 128 + 1 * (y 1).val = (y 1).val; rw [e1]; omega

theorem iblk1_0_at (c : Dev nD) (t : Fin cfg1.N) (y : S2000x64.Idx) (i : S50000x64.Idx)
    (h0 : (i 0).val = t.val * 2000 + (y 0).val) (h1 : (i 1).val = (y 1).val) :
    (iblk1 V c 0 t : Vec Ideal S2000x64 .f32) y = (V c main_v29 : S50000x64.Idx → EReal) i := by
  obtain ⟨e0, e1⟩ := idx1_0 t
  unfold iblk1
  rw [View.read_apply]
  show V c main_v29 _ = V c main_v29 _
  congr 1
  funext a
  apply Fin.ext
  match a with
  | ⟨0, _⟩ => show win1_0.index t 0 * 2000 + 1 * (y 0).val = (i 0).val; rw [e0, h0]; omega
  | ⟨1, _⟩ => show win1_0.index t 1 * 64 + 1 * (y 1).val = (i 1).val; rw [e1, h1]; omega

theorem iblk1_1_at (c : Dev nD) (t : Fin cfg1.N) (y : S2000x64.Idx) (i : S50000x64.Idx)
    (h0 : (i 0).val = t.val * 2000 + (y 0).val) (h1 : (i 1).val = (y 1).val) :
    (iblk1 V c 1 t : Vec Ideal S2000x64 .f32) y = (V c main_v19 : S50000x64.Idx → EReal) i := by
  obtain ⟨e0, e1⟩ := idx1_1 t
  unfold iblk1
  rw [View.read_apply]
  show V c main_v19 _ = V c main_v19 _
  congr 1
  funext a
  apply Fin.ext
  match a with
  | ⟨0, _⟩ => show win1_1.index t 0 * 2000 + 1 * (y 0).val = (i 0).val; rw [e0, h0]; omega
  | ⟨1, _⟩ => show win1_1.index t 1 * 64 + 1 * (y 1).val = (i 1).val; rw [e1, h1]; omega

theorem iblk1_2_at (c : Dev nD) (t : Fin cfg1.N) (y : S2000x1.Idx) (i : S50000x1.Idx)
    (h0 : (i 0).val = t.val * 2000 + (y 0).val) (h1 : (i 1).val = (y 1).val) :
    (iblk1 V c 2 t : Vec Ideal S2000x1 .f32) y = (V c main_v15 : S50000x1.Idx → EReal) i := by
  obtain ⟨e0, e1⟩ := idx1_2 t
  unfold iblk1
  rw [View.read_apply]
  show V c main_v15 _ = V c main_v15 _
  congr 1
  funext a
  apply Fin.ext
  match a with
  | ⟨0, _⟩ => show win1_2.index t 0 * 2000 + 1 * (y 0).val = (i 0).val; rw [e0, h0]; omega
  | ⟨1, _⟩ => show win1_2.index t 1 * 1 + 1 * (y 1).val = (i 1).val; rw [e1, h1]; omega

theorem iblk1_3_at (c : Dev nD) (t : Fin cfg1.N) (y : S1x64.Idx) :
    (iblk1 V c 3 t : Vec Ideal S1x64 .f32) y = (V c main_v30 : S1x64.Idx → EReal) y := by
  obtain ⟨e0, e1⟩ := idx1_3 t
  unfold iblk1
  rw [View.read_apply]
  show V c main_v30 _ = V c main_v30 _
  congr 1
  funext a
  apply Fin.ext
  match a with
  | ⟨0, _⟩ => show win1_3.index t 0 * 1 + 1 * (y 0).val = (y 0).val; rw [e0]; omega
  | ⟨1, _⟩ => show win1_3.index t 1 * 64 + 1 * (y 1).val = (y 1).val; rw [e1]; omega

theorem iblk1_4_at (c : Dev nD) (t : Fin cfg1.N) (y : S64x64.Idx) :
    (iblk1 V c 4 t : Vec Ideal S64x64 .f32) y = (V c main_v31 : S64x64.Idx → EReal) y := by
  obtain ⟨e0, e1⟩ := idx1_4 t
  unfold iblk1
  rw [View.read_apply]
  show V c main_v31 _ = V c main_v31 _
  congr 1
  funext a
  apply Fin.ext
  match a with
  | ⟨0, _⟩ => show win1_4.index t 0 * 64 + 1 * (y 0).val = (y 0).val; rw [e0]; omega
  | ⟨1, _⟩ => show win1_4.index t 1 * 64 + 1 * (y 1).val = (y 1).val; rw [e1]; omega

theorem iblk2_0_at (c : Dev nD) (t : Fin cfg2.N) (y : S2000x32.Idx) (i : S50000x32.Idx)
    (h0 : (i 0).val = t.val * 2000 + (y 0).val) (h1 : (i 1).val = (y 1).val) :
    (iblk2 V c 0 t : Vec Ideal S2000x32 .f32) y = (V c main_v44 : S50000x32.Idx → EReal) i := by
  obtain ⟨e0, e1⟩ := idx2_0 t
  unfold iblk2
  rw [View.read_apply]
  show V c main_v44 _ = V c main_v44 _
  congr 1
  funext a
  apply Fin.ext
  match a with
  | ⟨0, _⟩ => show win2_0.index t 0 * 2000 + 1 * (y 0).val = (i 0).val; rw [e0, h0]; omega
  | ⟨1, _⟩ => show win2_0.index t 1 * 32 + 1 * (y 1).val = (i 1).val; rw [e1, h1]; omega

theorem iblk2_1_at (c : Dev nD) (t : Fin cfg2.N) (y : S2000x32.Idx) (i : S50000x32.Idx)
    (h0 : (i 0).val = t.val * 2000 + (y 0).val) (h1 : (i 1).val = (y 1).val) :
    (iblk2 V c 1 t : Vec Ideal S2000x32 .f32) y = (V c main_v34 : S50000x32.Idx → EReal) i := by
  obtain ⟨e0, e1⟩ := idx2_1 t
  unfold iblk2
  rw [View.read_apply]
  show V c main_v34 _ = V c main_v34 _
  congr 1
  funext a
  apply Fin.ext
  match a with
  | ⟨0, _⟩ => show win2_1.index t 0 * 2000 + 1 * (y 0).val = (i 0).val; rw [e0, h0]; omega
  | ⟨1, _⟩ => show win2_1.index t 1 * 32 + 1 * (y 1).val = (i 1).val; rw [e1, h1]; omega

theorem iblk2_2_at (c : Dev nD) (t : Fin cfg2.N) (y : S2000x1.Idx) (i : S50000x1.Idx)
    (h0 : (i 0).val = t.val * 2000 + (y 0).val) (h1 : (i 1).val = (y 1).val) :
    (iblk2 V c 2 t : Vec Ideal S2000x1 .f32) y = (V c main_v15 : S50000x1.Idx → EReal) i := by
  obtain ⟨e0, e1⟩ := idx2_2 t
  unfold iblk2
  rw [View.read_apply]
  show V c main_v15 _ = V c main_v15 _
  congr 1
  funext a
  apply Fin.ext
  match a with
  | ⟨0, _⟩ => show win2_2.index t 0 * 2000 + 1 * (y 0).val = (i 0).val; rw [e0, h0]; omega
  | ⟨1, _⟩ => show win2_2.index t 1 * 1 + 1 * (y 1).val = (i 1).val; rw [e1, h1]; omega

theorem iblk2_3_at (c : Dev nD) (t : Fin cfg2.N) (y : S1x32.Idx) :
    (iblk2 V c 3 t : Vec Ideal S1x32 .f32) y = (V c main_v45 : S1x32.Idx → EReal) y := by
  obtain ⟨e0, e1⟩ := idx2_3 t
  unfold iblk2
  rw [View.read_apply]
  show V c main_v45 _ = V c main_v45 _
  congr 1
  funext a
  apply Fin.ext
  match a with
  | ⟨0, _⟩ => show win2_3.index t 0 * 1 + 1 * (y 0).val = (y 0).val; rw [e0]; omega
  | ⟨1, _⟩ => show win2_3.index t 1 * 32 + 1 * (y 1).val = (y 1).val; rw [e1]; omega

/-! ## The output tiles: which entries a tile covers, and that the tiles cover the array -/

theorem tile_lt0 (t : Fin cfg0.N) : t.val < 25 := by have h := t.isLt; have e : cfg0.N = 25 := N_0; omega

theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v17).slice (win0_2.rect t)).set ↔ _
  rw [View.set_slice_whole, Rect.mem_set_unit]
  exact Iff.rfl

theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨e0, e1⟩ := idx0_2 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ 0 * 2000 ≤ (i 0).val ∧ (i 0).val < win0_2.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ 1 * 128 ≤ (i 1).val ∧ (i 1).val < win0_2.index ⟨(i 0).val / 2000, ht⟩ 1 * 128 + 128
    rw [e1]; omega

/-- Entry `(p, q)` of output tile `t` is entry `(2000 t + p, q)` of the array. -/
theorem emb0 (t : Fin cfg0.N) (p : Fin 2000) (q : Fin 128) :
    (((cfg0.win 2).blk t).view.emb (ix2 p q) : S50000x128.Idx) = ix2 (rowOf t.val (tile_lt0 t) p) q := by
  obtain ⟨e0, e1⟩ := idx0_2 t
  funext a
  apply Fin.ext
  match a with
  | ⟨0, _⟩ => show win0_2.index t 0 * 2000 + 1 * p.val = t.val * 2000 + p.val; rw [e0]; omega
  | ⟨1, _⟩ => show win0_2.index t 1 * 128 + 1 * q.val = q.val; rw [e1]; omega

theorem tile_lt1 (t : Fin cfg1.N) : t.val < 25 := by have h := t.isLt; have e : cfg1.N = 25 := N_1; omega

theorem mem_blk1 (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v32).slice (win1_5.rect t)).set ↔ _
  rw [View.set_slice_whole, Rect.mem_set_unit]
  exact Iff.rfl

theorem cover1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  have ht : (i 0).val / 2000 < cfg1.N := by rw [hN]; omega
  obtain ⟨e0, e1⟩ := idx1_5 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ 0 * 2000 ≤ (i 0).val ∧ (i 0).val < win1_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ 1 * 64 ≤ (i 1).val ∧ (i 1).val < win1_5.index ⟨(i 0).val / 2000, ht⟩ 1 * 64 + 64
    rw [e1]; omega

/-- Entry `(p, q)` of output tile `t` is entry `(2000 t + p, q)` of the array. -/
theorem emb1 (t : Fin cfg1.N) (p : Fin 2000) (q : Fin 64) :
    (((cfg1.win 5).blk t).view.emb (ix2 p q) : S50000x64.Idx) = ix2 (rowOf t.val (tile_lt1 t) p) q := by
  obtain ⟨e0, e1⟩ := idx1_5 t
  funext a
  apply Fin.ext
  match a with
  | ⟨0, _⟩ => show win1_5.index t 0 * 2000 + 1 * p.val = t.val * 2000 + p.val; rw [e0]; omega
  | ⟨1, _⟩ => show win1_5.index t 1 * 64 + 1 * q.val = q.val; rw [e1]; omega

theorem tile_lt2 (t : Fin cfg2.N) : t.val < 25 := by have h := t.isLt; have e : cfg2.N = 25 := N_2; omega

theorem mem_blk2 (t : Fin cfg2.N) (i : S50000x32.Idx) :
    i ∈ ((cfg2.win 4).blk t).view.set ↔ ∀ a : Fin 2, win2_4.index t a * S2000x32.size a ≤ (i a).val
      ∧ (i a).val < win2_4.index t a * S2000x32.size a + S2000x32.size a := by
  show i ∈ ((View.whole main_v46).slice (win2_4.rect t)).set ↔ _
  rw [View.set_slice_whole, Rect.mem_set_unit]
  exact Iff.rfl

theorem cover2 (i : S50000x32.Idx) :
    ∃ t : Fin cfg2.N, (cfg2.win 4).flush t = true ∧ i ∈ ((cfg2.win 4).blk t).view.set := by
  have hi0 : (i 0).val < 50000 := (i 0).isLt
  have hi1 : (i 1).val < 32 := (i 1).isLt
  have hN : cfg2.N = 25 := N_2
  have ht : (i 0).val / 2000 < cfg2.N := by rw [hN]; omega
  obtain ⟨e0, e1⟩ := idx2_4 ⟨(i 0).val / 2000, ht⟩
  refine ⟨⟨(i 0).val / 2000, ht⟩, flush2_4 _, ?_⟩
  rw [mem_blk2]
  intro a
  match a with
  | ⟨0, _⟩ =>
    show win2_4.index ⟨(i 0).val / 2000, ht⟩ 0 * 2000 ≤ (i 0).val ∧ (i 0).val < win2_4.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win2_4.index ⟨(i 0).val / 2000, ht⟩ 1 * 32 ≤ (i 1).val ∧ (i 1).val < win2_4.index ⟨(i 0).val / 2000, ht⟩ 1 * 32 + 32
    rw [e1]; omega

/-- Entry `(p, q)` of output tile `t` is entry `(2000 t + p, q)` of the array. -/
theorem emb2 (t : Fin cfg2.N) (p : Fin 2000) (q : Fin 32) :
    (((cfg2.win 4).blk t).view.emb (ix2 p q) : S50000x32.Idx) = ix2 (rowOf t.val (tile_lt2 t) p) q := by
  obtain ⟨e0, e1⟩ := idx2_4 t
  funext a
  apply Fin.ext
  match a with
  | ⟨0, _⟩ => show win2_4.index t 0 * 2000 + 1 * p.val = t.val * 2000 + p.val; rw [e0]; omega
  | ⟨1, _⟩ => show win2_4.index t 1 * 32 + 1 * q.val = q.val; rw [e1]; omega

/-! ## What a tile writes back, and the arrays after the passes -/

/-- Tile `t` of the first pass writes back tile `t` of the product. -/
theorem flushed0 (c : Dev nD) (t : Fin cfg0.N) :
    (dat0 V c).flushed 2 t = ((cfg0.win 2).blk t).view.read (Elt Ideal) (prod0 (V c main_arg0) (V c main_v16)) := by
  show (cfg0.win 2).cut (grid0.coords t) ((dat0 V c).after 2 t) = _
  rw [after0_2]
  unfold out0_2
  rw [View.canon_unit_zero hz]
  simp only [View.ld_unit_zero (S := S2000x1433) hz, View.ld_unit_zero (S := S1433x128) hz]
  funext j
  have hj0 : (j 0).val < 2000 := (j 0).isLt
  have hj1 : (j 1).val < 128 := (j 1).isLt
  obtain ⟨p, q, rfl⟩ : ∃ (p : Fin 2000) (q : Fin 128), j = ix2 p q :=
    ⟨⟨(j 0).val, hj0⟩, ⟨(j 1).val, hj1⟩, funext fun a => by match a with | ⟨0, _⟩ => rfl | ⟨1, _⟩ => rfl⟩
  show k0_pay1 (iblk0 V c 0 t) (iblk0 V c 1 t) (ix2 p q) = prod0 (V c main_arg0) (V c main_v16) (((cfg0.win 2).blk t).view.emb (ix2 p q))
  rw [emb0 t p q]
  refine (Tile.pay0_at (iblk0 V c 0 t) (iblk0 V c 1 t) p q).trans ?_
  unfold prod0
  refine Finset.sum_congr rfl fun k _ => ?_
  rw [iblk0_0_at V c t (ix2 p k) (ix2 (rowOf t.val (tile_lt0 t) p) k) rfl rfl, iblk0_1_at V c t (ix2 k q)]

/-- After the first pass its output array is the product of the features with the weights. -/
theorem final0 (c : Dev nD) : (dat0 V c).arrAt 2 cfg0.N = prod0 (V c main_arg0) (V c main_v16) :=
  (dat0 V c).arrAt_eq_of_cover 2 (prod0 (V c main_arg0) (V c main_v16)) (fun t _ => flushed0 V c t) cover0

/-- Tile `t` of the second pass writes back tile `t` of the mixed rows times the second weights. -/
theorem flushed1 (c : Dev nD) (t : Fin cfg1.N) :
    (dat1 V c).flushed 5 t = ((cfg1.win 5).blk t).view.read (Elt Ideal)
      (prod1 (V c main_v29) (V c main_v19) (V c main_v15) (V c main_v30) (V c main_v31)) := by
  show (cfg1.win 5).cut (grid1.coords t) ((dat1 V c).after 5 t) = _
  rw [after1_5]
  unfold out1_5
  rw [View.canon_unit_zero hz]
  simp only [View.ld_unit_zero (S := S2000x64) hz, View.ld_unit_zero (S := S2000x1) hz, View.ld_unit_zero (S := S1x64) hz,
    View.ld_unit_zero (S := S64x64) hz]
  funext j
  have hj0 : (j 0).val < 2000 := (j 0).isLt
  have hj1 : (j 1).val < 64 := (j 1).isLt
  obtain ⟨p, q, rfl⟩ : ∃ (p : Fin 2000) (q : Fin 64), j = ix2 p q :=
    ⟨⟨(j 0).val, hj0⟩, ⟨(j 1).val, hj1⟩, funext fun a => by match a with | ⟨0, _⟩ => rfl | ⟨1, _⟩ => rfl⟩
  show k1_pay1 (iblk1 V c 0 t) (iblk1 V c 2 t) (iblk1 V c 3 t) (iblk1 V c 1 t) (iblk1 V c 4 t) (ix2 p q)
    = prod1 (V c main_v29) (V c main_v19) (V c main_v15) (V c main_v30) (V c main_v31) (((cfg1.win 5).blk t).view.emb (ix2 p q))
  rw [emb1 t p q]
  refine (Tile.pay1_at (iblk1 V c 0 t) (iblk1 V c 2 t) (iblk1 V c 3 t) (iblk1 V c 1 t) (iblk1 V c 4 t) p q).trans ?_
  unfold prod1
  refine Finset.sum_congr rfl fun k _ => ?_
  rw [iblk1_0_at V c t (ix2 p k) (ix2 (rowOf t.val (tile_lt1 t) p) k) rfl rfl,
    iblk1_2_at V c t (ix2 p 0) (ix2 (rowOf t.val (tile_lt1 t) p) 0) rfl rfl,
    iblk1_3_at V c t (ix2 0 k),
    iblk1_1_at V c t (ix2 p k) (ix2 (rowOf t.val (tile_lt1 t) p) k) rfl rfl,
    iblk1_4_at V c t (ix2 k q)]

/-- After the second pass its output array is the mixed rows times the second weights. -/
theorem final1 (c : Dev nD) : (dat1 V c).arrAt 5 cfg1.N
    = prod1 (V c main_v29) (V c main_v19) (V c main_v15) (V c main_v30) (V c main_v31) :=
  (dat1 V c).arrAt_eq_of_cover 5 (prod1 (V c main_v29) (V c main_v19) (V c main_v15) (V c main_v30) (V c main_v31))
    (fun t _ => flushed1 V c t) cover1

/-- Tile `t` of the third pass writes back tile `t` of the log-soft-max of the rectified mixed rows. -/
theorem flushed2 (c : Dev nD) (t : Fin cfg2.N) :
    (dat2 V c).flushed 4 t = ((cfg2.win 4).blk t).view.read (Elt Ideal)
      (out2 (V c main_v44) (V c main_v34) (V c main_v15) (V c main_v45)) := by
  show (cfg2.win 4).cut (grid2.coords t) ((dat2 V c).after 4 t) = _
  rw [after2_4]
  unfold out2_4
  rw [View.canon_unit_zero hz]
  simp only [View.ld_unit_zero (S := S2000x32) hz, View.ld_unit_zero (S := S2000x1) hz, View.ld_unit_zero (S := S1x32) hz]
  funext j
  have hj0 : (j 0).val < 2000 := (j 0).isLt
  have hj1 : (j 1).val < 32 := (j 1).isLt
  obtain ⟨p, q, rfl⟩ : ∃ (p : Fin 2000) (q : Fin 32), j = ix2 p q :=
    ⟨⟨(j 0).val, hj0⟩, ⟨(j 1).val, hj1⟩, funext fun a => by match a with | ⟨0, _⟩ => rfl | ⟨1, _⟩ => rfl⟩
  show k2_pay1 (iblk2 V c 0 t) (iblk2 V c 2 t) (iblk2 V c 3 t) (iblk2 V c 1 t) (ix2 p q)
    = out2 (V c main_v44) (V c main_v34) (V c main_v15) (V c main_v45) (((cfg2.win 4).blk t).view.emb (ix2 p q))
  rw [emb2 t p q]
  refine (Tile.pay2_at (iblk2 V c 0 t) (iblk2 V c 2 t) (iblk2 V c 3 t) (iblk2 V c 1 t) p q).trans ?_
  unfold out2
  refine congrArg (logSoftmaxRow · q) (funext fun cc => ?_)
  rw [iblk2_0_at V c t (ix2 p cc) (ix2 (rowOf t.val (tile_lt2 t) p) cc) rfl rfl,
    iblk2_2_at V c t (ix2 p 0) (ix2 (rowOf t.val (tile_lt2 t) p) 0) rfl rfl,
    iblk2_3_at V c t (ix2 0 cc),
    iblk2_1_at V c t (ix2 p cc) (ix2 (rowOf t.val (tile_lt2 t) p) cc) rfl rfl]

/-- After the third pass its output array is the log-soft-max of the rectified mixed rows. -/
theorem final2 (c : Dev nD) : (dat2 V c).arrAt 4 cfg2.N
    = out2 (V c main_v44) (V c main_v34) (V c main_v15) (V c main_v45) :=
  (dat2 V c).arrAt_eq_of_cover 4 (out2 (V c main_v44) (V c main_v34) (V c main_v15) (V c main_v45))
    (fun t _ => flushed2 V c t) cover2

end Cert.KernelIdeal.Pass

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibHostReads.lean ====
/-
  Host array operations read at coordinates, over the extended reals — general facts, for any extents.

  * The accumulating scatters `[E, C] → [N, C]` and `[E] → [N]` along an index column `[E, 1]`, and the row gather
    `[N, C] → [E, C]`, stated for ANY dimension-number record that equals the row / vector one (so a printed record
    is passed with `rfl`): the host operation `Host.scatterAdd` / `Host.gather` itself, not the instance's field.
  * The `broadcast_in_dim` forms of a kept axis: `[m] → [m, 1]` at `(p, 0)`, `[m, 1] → [m, n]` at `(p, q)`,
    `[n] → [1, n]` at `(0, q)`, `[1, n] → [m, n]` at `(p, q)`.
  * The host's maximum and sum along the rows of a matrix (`stablehlo.reduce` over axis 1 with a scalar initial
    value), read at a row: the maximum folded from the initial value, the initial value plus the row's sum — from
    the `ReducesTo` fact alone.
  * Contents carried to a typed reference's buffer type and back (the casts an outlined function's operations
    put around their values cancel in pairs, with no evaluation of the buffer's type).
-/
import proofs.«125611_j42296837931009_2_alg».proof.Proof.LibSegmentRows
import proofs.«125611_j42296837931009_2_alg».proof.Proof.LibRowMax
import Idealize.ShloMosaic.PureOps.Reduce
import Idealize.ShloMosaic.Lib.Pipeline.Value
import Idealize.ShloMosaic.Lib.StableHlo.Run

noncomputable section

open Idealize.ShloMosaic Idealize.ShloMosaic.ValueIdx Cert.SegmentRows

namespace Cert.LibHostReads

variable {N E K C : ℕ}

/-- A host accumulating row scatter with the row dimension numbers, read at `(r, c)`. -/
theorem hostScatter_rows_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatterDims N E C wf)
    (x : (⟨2, ![N, C]⟩ : Shape).Idx → EReal) (idx : IVec ⟨2, ![E, 1]⟩ 32) (upd : (⟨2, ![E, C]⟩ : Shape).Idx → EReal) (r : Fin N) (c : Fin C) :
    Host.scatterAdd (F := Ideal) (φ := .f32) d x idx upd (ix2 r c) = x (ix2 r c) + ∑ e ∈ segment idx r, upd (ix2 e c) := by
  subst hd
  exact scatterAdd_rows_apply wf x idx upd r c

/-- A host accumulating vector scatter with the vector dimension numbers, read at `r`. -/
theorem hostScatter_vec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : (⟨1, ![N]⟩ : Shape).Idx → EReal) (idx : IVec ⟨2, ![E, 1]⟩ 32) (upd : (⟨1, ![E]⟩ : Shape).Idx → EReal) (r : Fin N) :
    Host.scatterAdd (F := Ideal) (φ := .f32) d x idx upd (ix1 r) = x (ix1 r) + ∑ e ∈ segment idx r, upd (ix1 e) := by
  subst hd
  exact scatterAdd_vec_apply wf x idx upd r

/-- A host row gather with the row dimension numbers, read at `(e, c)`. -/
theorem hostGather_rows_apply {α : Type} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGatherDims N E C wf)
    (x : (⟨2, ![N, C]⟩ : Shape).Idx → α) (idx : IVec ⟨2, ![E, 1]⟩ 32) (e : Fin E) (c : Fin C) :
    Host.gather d x idx (ix2 e c) = x (ix2 (takeRow hN idx e) c) := by
  subst hd
  exact gather_rows_apply hN wf x idx e c

/-! ## Kept axes, the `broadcast_in_dim` forms -/

variable {α : Type} {m n : ℕ}

/-- `[m] → [m, 1]` read at `(p, 0)`. -/
theorem colInner_apply (u : (⟨1, ![m]⟩ : Shape).Idx → α) (h : (⟨1, ![m]⟩ : Shape).BroadcastsInDim ⟨2, ![m, 1]⟩ ![0]) (p : Fin m) :
    broadcastInDim ⟨2, ![m, 1]⟩ ![0] h u (ix2 p 0) = u (ix1 p) :=
  broadcastInDim_apply ![0] h u (ix2 p 0) (ix1 p) fun a => by
    match a with
    | ⟨0, _⟩ =>
      show p.val = if m = 1 then 0 else p.val
      split_ifs with h1
      · have := p.isLt; omega
      · rfl

/-- `[m, 1] → [m, n]` read at `(p, q)`. -/
theorem colOuter_apply (w : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h w (ix2 p q) = w (ix2 p 0) :=
  broadcastInDim_apply ![0, 1] h w (ix2 p q) (ix2 p 0) fun a => by
    match a with
    | ⟨0, _⟩ =>
      show p.val = if m = 1 then 0 else p.val
      split_ifs with h1
      · have := p.isLt; omega
      · rfl
    | ⟨1, _⟩ => rfl

/-- `[n] → [1, n]` read at `(0, q)`. -/
theorem rowInner_apply (u : (⟨1, ![n]⟩ : Shape).Idx → α) (h : (⟨1, ![n]⟩ : Shape).BroadcastsInDim ⟨2, ![1, n]⟩ ![1]) (q : Fin n) :
    broadcastInDim ⟨2, ![1, n]⟩ ![1] h u (ix2 0 q) = u (ix1 q) :=
  broadcastInDim_apply ![1] h u (ix2 0 q) (ix1 q) fun a => by
    match a with
    | ⟨0, _⟩ =>
      show q.val = if n = 1 then 0 else q.val
      split_ifs with h1
      · have := q.isLt; omega
      · rfl

/-- `[1, n] → [m, n]` read at `(p, q)`. -/
theorem rowOuter_apply (w : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h w (ix2 p q) = w (ix2 0 q) :=
  broadcastInDim_apply ![0, 1] h w (ix2 p q) (ix2 0 q) fun a => by
    match a with
    | ⟨0, _⟩ => rfl
    | ⟨1, _⟩ =>
      show q.val = if n = 1 then 0 else q.val
      split_ifs with h1
      · have := q.isLt; omega
      · rfl

/-! ## Row reductions on the host -/

/-- The host's maximum along the rows at `p`: the maximum folded over the row from the initial value. -/
theorem hostRowMax_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduce (FloatOps.maximumf (F := Ideal) (φ := .f32)) v init h' hu (ix1 p)
      = (Finset.univ : Finset (Fin n)).fold max (init (Shape.Idx.first hu)) (fun c => v (ix2 p c)) := by
  have h : (⟨2, ![m, n]⟩ : Shape).Reduces [1] (⟨1, ![m]⟩ : Shape) := by
    obtain ⟨hr, hs⟩ := h'
    exact ⟨hr, Nat.one_pos, hs⟩
  rw [Host.reduce_eq_fold_single _ v init h' h hu (ix1 p), Cert.LibRowMax.comp_lift_row v h p]
  rfl

/-- The host's sum along the rows at `p`: the initial value plus the sum over the row. -/
theorem hostRowSum_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduceAdd (F := Ideal) (φ := .f32) v init h' hu (ix1 p) = init (Shape.Idx.first hu) + ∑ c : Fin n, v (ix2 p c) := by
  have h : (⟨2, ![m, n]⟩ : Shape).Reduces [1] (⟨1, ![m]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.Rows.lift_row h p k)

/-! ## Typed references -/

open Idealize.ShloMosaic.StableHlo in
/-- Contents at a value's type carried to its buffer's type and back. -/
theorem ofBuf_toBuf {sig : RefSig} {Val : EltTy → Type} {T : BufTy} (y : TRef sig T) (v : T.Contents Val) :
    y.ofBuf (y.toBuf v) = v := by
  obtain ⟨r, e, h1, h2⟩ := y
  subst e
  rfl

end Cert.LibHostReads

end
-- ==== Proof.KHost.lean ====
/-
  The contents of the buffers the three passes read, as the run finds them.

  Between the passes the program runs whole-array operations: it cuts the edge list into its source and target rows,
  counts each node's incoming edges and forms the multiplier column, concatenates the two weight matrices of a layer
  side by side, and after a pass cuts its output into the message half and the self half, gathers the messages along
  the edges and adds them up at the target nodes. Each buffer a pass reads is named here, at the boundary where the
  pass starts, as these operations applied to the launch contents of the arguments and to what the earlier passes
  left. A buffer that nothing in between writes keeps its contents from one boundary to the next.
-/
import proofs.«125611_j42296837931009_2_alg».proof.Proof.Gen.KernelIdeal.Frame
import proofs.«125611_j42296837931009_2_alg».proof.Proof.Spec
import proofs.«125611_j42296837931009_2_alg».proof.Proof.LibHostReads
import Idealize.ShloMosaic.Lib.StableHlo.Run

set_option maxRecDepth 16384

noncomputable section

namespace Cert.KernelIdeal.Host

open Cert.KernelIdeal Cert.KernelIdeal.Gen Cert.Sage
open Idealize.ShloMosaic Idealize.ShloMosaic.TcCoe Idealize.ShloMosaic.StableHlo Idealize.SL.Sem Idealize.ShloMosaic.ValueIdx
open Idealize.ShloMosaic.Pipeline (Dat)

variable (m : (ℓ : Loc nD τ sig) → Buf (Elt Ideal) ℓ) (ρ : Dev nD → PrngReg)

/-! ## The whole-array terms -/

/-- The source row and the target row of the edge list, as vectors. -/
def srcVec (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000
def dstVec (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- The in-degree: ones added up at the target nodes. -/
def degree (x1 : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dstVec x1))
    (broadcastInDim S800000 ![] bcast_S_S800000 (constant (F := Ideal) S_ .f32 0x3F800000#32))

/-- The multiplier column: one over the larger of degree and one where the degree is positive, zero elsewhere. -/
def degCol (x1 : (⟨S2x800000, .i32⟩ : BufTy).Contents (Elt Ideal)) : (⟨S50000x1, .f32⟩ : BufTy).Contents (Elt Ideal) :=
  shapeCast _ (select (cmpf (F := Ideal) .ogt (degree x1) (broadcastInDim S50000 ![] bcast_S_S50000 (constant (F := Ideal) S_ .f32 0x00000000#32)))
      (Host.divf (F := Ideal) (broadcastInDim S50000 ![] bcast_S_S50000 (constant (F := Ideal) S_ .f32 0x3F800000#32))
        (maximumf (F := Ideal) (degree x1) (broadcastInDim S50000 ![] bcast_S_S50000 (constant (F := Ideal) S_ .f32 0x3F800000#32))))
      (broadcastInDim S50000 ![] bcast_S_S50000 (id (constant (F := Ideal) S_ .f32 0x00000000#32))))
    shapeCasts_S50000_S50000x1

/-- The source index column with negative indices wrapped. -/
def srcCol (x1 : (⟨S2x800000, .i32⟩ : BufTy).Contents (Elt Ideal)) : (⟨S800000x1, .i32⟩ : BufTy).Contents (Elt Ideal) :=
  broadcastInDim S800000x1 ![0] bcast_S800000_S800000x1_0
    (select (cmpi .slt (srcVec x1) (broadcastInDim S800000 ![] bcast_S_S800000 (constantI S_ 32 0#32)))
      (addi (srcVec x1) (broadcastInDim S800000 ![] bcast_S_S800000 (constantI S_ 32 50000#32))) (srcVec x1))

/-- Messages of width 64 gathered along the edges and added up at the targets; the same at width 32. -/
def aggregate64 (x1 : (⟨S2x800000, .i32⟩ : BufTy).Contents (Elt Ideal)) (msg : (⟨S50000x64, .f32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (dstVec x1))
    (Host.gather gather_S50000x64_S800000x1_S800000x64_1_0_n_n_0_1_164 msg (srcCol x1))
def aggregate32 (x1 : (⟨S2x800000, .i32⟩ : BufTy).Contents (Elt Ideal)) (msg : (⟨S50000x32, .f32⟩ : BufTy).Contents (Elt Ideal)) :
    (⟨S50000x32, .f32⟩ : BufTy).Contents (Elt Ideal) :=
  Host.scatterAdd (F := Ideal) scatter_S50000x32_S800000x1_S800000x32_1_0_0_1
    (broadcastInDim S50000x32 ![] bcast_S_S50000x32 (constant (F := Ideal) S_ .f32 0x00000000#32))
    (broadcastInDim S800000x1 ![0] bcast_S800000_S800000x1_0 (dstVec x1))
    (Host.gather gather_S50000x32_S800000x1_S800000x32_1_0_n_n_0_1_132 msg (srcCol x1))

/-- The two weight matrices of a layer side by side. -/
def weights1 (x2 x4 : (⟨S1433x64, .f32⟩ : BufTy).Contents (Elt Ideal)) : (⟨S1433x128, .f32⟩ : BufTy).Contents (Elt Ideal) :=
  concatenate S1433x128 1 [⟨S1433x64, x2⟩, ⟨S1433x64, x4⟩] concatenates_S1433x64_S1433x64_S1433x128_d1
def weights2 (x5 x7 : (⟨S64x32, .f32⟩ : BufTy).Contents (Elt Ideal)) : (⟨S64x64, .f32⟩ : BufTy).Contents (Elt Ideal) :=
  concatenate S64x64 1 [⟨S64x32, x5⟩, ⟨S64x32, x7⟩] concatenates_S64x32_S64x32_S64x64_d1

/-- The launch contents of the arguments. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-! ## At the first pass's entry -/

theorem W3_arg0 (c : Dev nD) : W3 m ρ c (Proc.devRef .tc main_arg0) = a0 m c := by
  show StableHlo.after hostOps0_2 (StableHlo.after hostOps0_1 (StableHlo.after hostOps0 (W0 m ρ c))) (Proc.devRef .tc main_arg0) = _
  after_results <;> rfl
theorem W3_arg3 (c : Dev nD) : W3 m ρ c (Proc.devRef .tc main_arg3) = a3 m c := by
  show StableHlo.after hostOps0_2 (StableHlo.after hostOps0_1 (StableHlo.after hostOps0 (W0 m ρ c))) (Proc.devRef .tc main_arg3) = _
  after_results <;> rfl
theorem W3_arg5 (c : Dev nD) : W3 m ρ c (Proc.devRef .tc main_arg5) = a5 m c := by
  show StableHlo.after hostOps0_2 (StableHlo.after hostOps0_1 (StableHlo.after hostOps0 (W0 m ρ c))) (Proc.devRef .tc main_arg5) = _
  after_results <;> rfl
theorem W3_arg6 (c : Dev nD) : W3 m ρ c (Proc.devRef .tc main_arg6) = a6 m c := by
  show StableHlo.after hostOps0_2 (StableHlo.after hostOps0_1 (StableHlo.after hostOps0 (W0 m ρ c))) (Proc.devRef .tc main_arg6) = _
  after_results <;> rfl
theorem W3_arg7 (c : Dev nD) : W3 m ρ c (Proc.devRef .tc main_arg7) = a7 m c := by
  show StableHlo.after hostOps0_2 (StableHlo.after hostOps0_1 (StableHlo.after hostOps0 (W0 m ρ c))) (Proc.devRef .tc main_arg7) = _
  after_results <;> rfl
theorem W3_v1 (c : Dev nD) : W3 m ρ c (Proc.devRef .tc main_v1) = srcVec (a1 m c) := by
  show StableHlo.after hostOps0_2 (StableHlo.after hostOps0_1 (StableHlo.after hostOps0 (W0 m ρ c))) (Proc.devRef .tc main_v1) = _
  after_results <;> rfl
theorem W3_v3 (c : Dev nD) : W3 m ρ c (Proc.devRef .tc main_v3) = dstVec (a1 m c) := by
  show StableHlo.after hostOps0_2 (StableHlo.after hostOps0_1 (StableHlo.after hostOps0 (W0 m ρ c))) (Proc.devRef .tc main_v3) = _
  after_results <;> rfl
theorem W3_v16 (c : Dev nD) : W3 m ρ c (Proc.devRef .tc main_v16) = weights1 (a2 m c) (a4 m c) := by
  show StableHlo.after hostOps0_2 (StableHlo.after hostOps0_1 (StableHlo.after hostOps0 (W0 m ρ c))) (Proc.devRef .tc main_v16) = _
  after_results <;> rfl
/-- The choice between the reciprocal and zero, recast as a column, from whatever the condition, the reciprocal and
    the zero constant are: the outlined choice's own carries of its values to the buffers' types and back cancel. -/
theorem where_col (U : Valuation τ sig (Elt Ideal)) (cnd : (⟨S50000, .i1⟩ : BufTy).Contents (Elt Ideal))
    (q : (⟨S50000, .f32⟩ : BufTy).Contents (Elt Ideal)) (z : (⟨S_, .f32⟩ : BufTy).Contents (Elt Ideal))
    (h11 : U (Proc.devRef .tc main_v11) = cnd) (h13 : U (Proc.devRef .tc main_v13) = q)
    (h4 : U (Proc.devRef .tc main_cst_4) = z) :
    StableHlo.after hostOps0_2 (StableHlo.after hostOps0_1 U) (Proc.devRef .tc main_v15)
      = shapeCast S50000x1 (select cnd q (broadcastInDim S50000 ![] bcast_S_S50000 (id z))) shapeCasts_S50000_S50000x1 := by
  after_results_simp
  simp only [Cert.LibHostReads.ofBuf_toBuf, h11, h13, h4]
  rfl

set_option maxHeartbeats 4000000 in
theorem W1_v11 (c : Dev nD) : StableHlo.after hostOps0 (W0 m ρ c) (Proc.devRef .tc main_v11)
    = cmpf (F := Ideal) .ogt (degree (a1 m c)) (broadcastInDim S50000 ![] bcast_S_S50000 (constant (F := Ideal) S_ .f32 0x00000000#32)) := by
  after_results_simp
  unfold degree dstVec
  rfl

set_option maxHeartbeats 4000000 in
theorem W1_v13 (c : Dev nD) : StableHlo.after hostOps0 (W0 m ρ c) (Proc.devRef .tc main_v13)
    = Host.divf (F := Ideal) (broadcastInDim S50000 ![] bcast_S_S50000 (constant (F := Ideal) S_ .f32 0x3F800000#32))
        (maximumf (F := Ideal) (degree (a1 m c)) (broadcastInDim S50000 ![] bcast_S_S50000 (constant (F := Ideal) S_ .f32 0x3F800000#32))) := by
  after_results_simp
  unfold degree dstVec
  rfl

theorem W1_cst4 (c : Dev nD) : StableHlo.after hostOps0 (W0 m ρ c) (Proc.devRef .tc main_cst_4)
    = constant (F := Ideal) S_ .f32 0x00000000#32 := by
  after_results_simp

/-- The multiplier column at the first pass's entry. -/
theorem W3_v15 (c : Dev nD) : W3 m ρ c (Proc.devRef .tc main_v15) = degCol (a1 m c) :=
  (where_col (StableHlo.after hostOps0 (W0 m ρ c)) _ _ _ (W1_v11 m ρ c) (W1_v13 m ρ c) (W1_cst4 m ρ c)).trans
    (by unfold degCol; rfl)

/-! ## Across the first pass, and at the second pass's entry -/

theorem W4_v1 (c : Dev nD) : W4 m ρ c (Proc.devRef .tc main_v1) = srcVec (a1 m c) :=
  (W4_of_ne m ρ c main_v1 (by decide)).trans (W3_v1 m ρ c)
theorem W4_v3 (c : Dev nD) : W4 m ρ c (Proc.devRef .tc main_v3) = dstVec (a1 m c) :=
  (W4_of_ne m ρ c main_v3 (by decide)).trans (W3_v3 m ρ c)
theorem W4_v15 (c : Dev nD) : W4 m ρ c (Proc.devRef .tc main_v15) = degCol (a1 m c) :=
  (W4_of_ne m ρ c main_v15 (by decide)).trans (W3_v15 m ρ c)
theorem W4_arg3 (c : Dev nD) : W4 m ρ c (Proc.devRef .tc main_arg3) = a3 m c :=
  (W4_of_ne m ρ c main_arg3 (by decide)).trans (W3_arg3 m ρ c)
theorem W4_arg5 (c : Dev nD) : W4 m ρ c (Proc.devRef .tc main_arg5) = a5 m c :=
  (W4_of_ne m ρ c main_arg5 (by decide)).trans (W3_arg5 m ρ c)
theorem W4_arg6 (c : Dev nD) : W4 m ρ c (Proc.devRef .tc main_arg6) = a6 m c :=
  (W4_of_ne m ρ c main_arg6 (by decide)).trans (W3_arg6 m ρ c)
theorem W4_arg7 (c : Dev nD) : W4 m ρ c (Proc.devRef .tc main_arg7) = a7 m c :=
  (W4_of_ne m ρ c main_arg7 (by decide)).trans (W3_arg7 m ρ c)

set_option maxHeartbeats 4000000 in
/-- The aggregated layer-one messages: the message half of the first pass's output, gathered and added up. -/
theorem W5_v29 (c : Dev nD) : W5 m ρ c (Proc.devRef .tc main_v29)
    = aggregate64 (a1 m c) (extractStridedSlice S50000x64 ![0, 0] (W4 m ρ c (Proc.devRef .tc main_v17)) slices_S50000x128_S50000x64_0_0) := by
  show StableHlo.after hostOps1 (W4 m ρ c) (Proc.devRef .tc main_v29) = _
  after_results_simp
  rw [W4_v1, W4_v3]
  unfold aggregate64 srcCol
  rfl
/-- The self half of the first pass's output. -/
theorem W5_v19 (c : Dev nD) : W5 m ρ c (Proc.devRef .tc main_v19)
    = extractStridedSlice S50000x64 ![0, 64] (W4 m ρ c (Proc.devRef .tc main_v17)) slices_S50000x128_S50000x64_0_64 := by
  show StableHlo.after hostOps1 (W4 m ρ c) (Proc.devRef .tc main_v19) = _
  after_results
theorem W5_v15 (c : Dev nD) : W5 m ρ c (Proc.devRef .tc main_v15) = degCol (a1 m c) := by
  show StableHlo.after hostOps1 (W4 m ρ c) (Proc.devRef .tc main_v15) = _
  after_results
  exact W4_v15 m ρ c
theorem W5_v30 (c : Dev nD) : W5 m ρ c (Proc.devRef .tc main_v30) = shapeCast S1x64 (a3 m c) shapeCasts_S64_S1x64 := by
  show StableHlo.after hostOps1 (W4 m ρ c) (Proc.devRef .tc main_v30) = _
  after_results
  rw [W4_arg3]
  rfl
theorem W5_v31 (c : Dev nD) : W5 m ρ c (Proc.devRef .tc main_v31) = weights2 (a5 m c) (a7 m c) := by
  show StableHlo.after hostOps1 (W4 m ρ c) (Proc.devRef .tc main_v31) = _
  after_results
  rw [W4_arg5, W4_arg7]
  rfl
theorem W5_v1 (c : Dev nD) : W5 m ρ c (Proc.devRef .tc main_v1) = srcVec (a1 m c) := by
  show StableHlo.after hostOps1 (W4 m ρ c) (Proc.devRef .tc main_v1) = _
  after_results
  exact W4_v1 m ρ c
theorem W5_v3 (c : Dev nD) : W5 m ρ c (Proc.devRef .tc main_v3) = dstVec (a1 m c) := by
  show StableHlo.after hostOps1 (W4 m ρ c) (Proc.devRef .tc main_v3) = _
  after_results
  exact W4_v3 m ρ c
theorem W5_arg6 (c : Dev nD) : W5 m ρ c (Proc.devRef .tc main_arg6) = a6 m c := by
  show StableHlo.after hostOps1 (W4 m ρ c) (Proc.devRef .tc main_arg6) = _
  after_results
  exact W4_arg6 m ρ c

/-! ## Across the second pass, and at the third pass's entry -/

theorem W6_v1 (c : Dev nD) : W6 m ρ c (Proc.devRef .tc main_v1) = srcVec (a1 m c) :=
  (W6_of_ne m ρ c main_v1 (by decide)).trans (W5_v1 m ρ c)
theorem W6_v3 (c : Dev nD) : W6 m ρ c (Proc.devRef .tc main_v3) = dstVec (a1 m c) :=
  (W6_of_ne m ρ c main_v3 (by decide)).trans (W5_v3 m ρ c)
theorem W6_arg6 (c : Dev nD) : W6 m ρ c (Proc.devRef .tc main_arg6) = a6 m c :=
  (W6_of_ne m ρ c main_arg6 (by decide)).trans (W5_arg6 m ρ c)
/-- The multiplier column is an input of the second pass: the pass leaves it as it found it. -/
theorem W6_v15 (c : Dev nD) : W6 m ρ c (Proc.devRef .tc main_v15) = degCol (a1 m c) :=
  ((W6_arr m ρ c 2).trans (((dat1 (V5 m ρ) c).arrAt_in 2 rfl _).trans (A_eq1 (V5 m ρ) c 2))).trans (W5_v15 m ρ c)

set_option maxHeartbeats 4000000 in
/-- The aggregated layer-two messages. -/
theorem W7_v44 (c : Dev nD) : W7 m ρ c (Proc.devRef .tc main_v44)
    = aggregate32 (a1 m c) (extractStridedSlice S50000x32 ![0, 0] (W6 m ρ c (Proc.devRef .tc main_v32)) slices_S50000x64_S50000x32_0_0) := by
  show StableHlo.after hostOps2 (W6 m ρ c) (Proc.devRef .tc main_v44) = _
  after_results_simp
  rw [W6_v1, W6_v3]
  unfold aggregate32 srcCol
  rfl
theorem W7_v34 (c : Dev nD) : W7 m ρ c (Proc.devRef .tc main_v34)
    = extractStridedSlice S50000x32 ![0, 32] (W6 m ρ c (Proc.devRef .tc main_v32)) slices_S50000x64_S50000x32_0_32 := by
  show StableHlo.after hostOps2 (W6 m ρ c) (Proc.devRef .tc main_v34) = _
  after_results
theorem W7_v15 (c : Dev nD) : W7 m ρ c (Proc.devRef .tc main_v15) = degCol (a1 m c) := by
  show StableHlo.after hostOps2 (W6 m ρ c) (Proc.devRef .tc main_v15) = _
  after_results
  exact W6_v15 m ρ c
theorem W7_v45 (c : Dev nD) : W7 m ρ c (Proc.devRef .tc main_v45) = shapeCast S1x32 (a6 m c) shapeCasts_S32_S1x32 := by
  show StableHlo.after hostOps2 (W6 m ρ c) (Proc.devRef .tc main_v45) = _
  after_results
  rw [W6_arg6]
  rfl

end Cert.KernelIdeal.Host

end
-- ==== Proof.LibRealArrays.lean ====
/-
  Arrays of real numbers inside arrays of extended reals, and the operations that keep them real.

  An array is REAL when every entry is (the coercion of) a real number. Reading an array at computed
  places (a gather, a broadcast) keeps it real; so do entrywise sums, differences and products, and a
  finite sum of entries — in particular the accumulating scatter, whose entry is the operand's entry
  plus a finite sum of update entries. The reciprocal square root keeps an array real where its entries are POSITIVE,
  and then the result is positive too. No operation here looks at which places are read: only at the
  fact that finitely many real numbers are combined.
-/
import Idealize.ShloMosaic.PureOps.Ideal.Laws
import Idealize.ShloMosaic.Lib.ValueIdx

noncomputable section

open scoped BigOperators

open Idealize.ShloMosaic Idealize.ShloMosaic.ValueIdx

namespace Cert.RealArr

/-- Every entry is a real number. -/
def IsReal {s : Shape} (v : s.Idx → EReal) : Prop := ∀ i, ∃ r : ℝ, v i = (r : EReal)

/-- Every entry is a positive real number. -/
def IsPos {s : Shape} (v : s.Idx → EReal) : Prop := ∀ i, ∃ r : ℝ, 0 < r ∧ v i = (r : EReal)

theorem IsPos.isReal {s : Shape} {v : s.Idx → EReal} (h : IsPos v) : IsReal v :=
  fun i => let ⟨r, _, e⟩ := h i; ⟨r, e⟩

/-- A finite sum of real numbers is a real number. -/
theorem sum_real {ι : Type*} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by rw [Finset.sum_empty, EReal.coe_zero]⟩
  | insert a s ha ih =>
    obtain ⟨ra, ea⟩ := h a (Finset.mem_insert_self a s)
    obtain ⟨rs, es⟩ := ih fun i hi => h i (Finset.mem_insert_of_mem hi)
    exact ⟨ra + rs, by rw [Finset.sum_insert ha, ea, es, EReal.coe_add]⟩

/-- A finite sum of nonnegative reals is a nonnegative real. -/
theorem sum_nonneg_real {ι : Type*} (s : Finset ι) (g : ι → EReal)
    (h : ∀ i ∈ s, ∃ r : ℝ, 0 ≤ r ∧ g i = (r : EReal)) : ∃ r : ℝ, 0 ≤ r ∧ ∑ i ∈ s, g i = (r : EReal) := by
  classical
  induction s using Finset.induction_on with
  | empty => exact ⟨0, le_rfl, by rw [Finset.sum_empty, EReal.coe_zero]⟩
  | insert a s ha ih =>
    obtain ⟨ra, pa, ea⟩ := h a (Finset.mem_insert_self a s)
    obtain ⟨rs, ps, es⟩ := ih fun i hi => h i (Finset.mem_insert_of_mem hi)
    exact ⟨ra + rs, add_nonneg pa ps, by rw [Finset.sum_insert ha, ea, es, EReal.coe_add]⟩

variable {s t : Shape}

/-- An array read at computed places (a gather) stays real. -/
theorem gather {si : Shape} {w : Nat} (d : GatherDims s si t) (x : s.Idx → EReal) (idx : IVec si w)
    (hx : IsReal x) : IsReal (Host.gather d x idx) := fun j => hx _

/-- A broadcast stays real. -/
theorem bcast (dims : Fin s.rank → Fin t.rank) (h : s.BroadcastsInDim t dims) (x : s.Idx → EReal)
    (hx : IsReal x) : IsReal (broadcastInDim t dims h x) := fun j => hx _

theorem bcast_pos (dims : Fin s.rank → Fin t.rank) (h : s.BroadcastsInDim t dims) (x : s.Idx → EReal)
    (hx : IsPos x) : IsPos (broadcastInDim t dims h x) := fun j => hx _

theorem mul (x y : FVec Ideal s .f32) (hx : IsReal x) (hy : IsReal y) : IsReal (mulf x y) := fun i => by
  obtain ⟨a, ea⟩ := hx i
  obtain ⟨b, eb⟩ := hy i
  exact ⟨a * b, by show x i * y i = _; rw [ea, eb, EReal.coe_mul]⟩

theorem add (x y : FVec Ideal s .f32) (hx : IsReal x) (hy : IsReal y) : IsReal (addf x y) := fun i => by
  obtain ⟨a, ea⟩ := hx i
  obtain ⟨b, eb⟩ := hy i
  exact ⟨a + b, by show x i + y i = _; rw [ea, eb, EReal.coe_add]⟩

theorem sub (x y : FVec Ideal s .f32) (hx : IsReal x) (hy : IsReal y) : IsReal (subf x y) := fun i => by
  obtain ⟨a, ea⟩ := hx i
  obtain ⟨b, eb⟩ := hy i
  exact ⟨a - b, by show x i - y i = _; rw [ea, eb, EReal.coe_sub]⟩

/-- A splat of a real constant is real. -/
theorem const (b : BitVec 32) (r : ℝ) (hb : Ideal.ofBits .f32 b = (r : EReal)) :
    IsReal (constant (F := Ideal) s .f32 b) := fun _ => ⟨r, hb⟩

/-- The accumulating scatter of a real array into a real array is real. -/
theorem scatterAdd {si u : Shape} {w : Nat} (d : ScatterDims s si u) (x : FVec Ideal s .f32) (idx : IVec si w)
    (upd : FVec Ideal u .f32) (hx : IsReal x) (hu : IsReal upd) : IsReal (Host.scatterAdd d x idx upd) := fun i => by
  obtain ⟨a, ea⟩ := hx i
  obtain ⟨b, eb⟩ := sum_real (Finset.univ.filter fun j => d.resultIdx? j idx = some i) upd fun j _ => hu j
  exact ⟨a + b, by
    show x i + ∑ j ∈ Finset.univ.filter (fun j => d.resultIdx? j idx = some i), upd j = _
    rw [ea, eb, EReal.coe_add]⟩

/-- The accumulating scatter of nonnegative reals into zeros, plus one, is positive. -/
theorem scatterAdd_count_pos {si u : Shape} {w : Nat} (d : ScatterDims s si u) (x : FVec Ideal s .f32)
    (idx : IVec si w) (upd one : FVec Ideal u .f32) (o : FVec Ideal s .f32)
    (hx : ∀ i, x i = 0) (hu : ∀ j, upd j = 1) (ho : ∀ i, o i = 1) :
    IsPos (addf (Host.scatterAdd d x idx upd) o) := fun i => by
  obtain ⟨b, pb, eb⟩ := sum_nonneg_real (Finset.univ.filter fun j => d.resultIdx? j idx = some i) upd
    fun j _ => ⟨1, zero_le_one, by rw [hu j, EReal.coe_one]⟩
  refine ⟨b + 1, by linarith, ?_⟩
  show (x i + ∑ j ∈ Finset.univ.filter (fun j => d.resultIdx? j idx = some i), upd j) + o i = _
  rw [hx i, ho i, eb, zero_add, EReal.coe_add, EReal.coe_one]

/-- The reciprocal square root of positive reals is positive reals. -/
theorem rsqrt_pos (v : FVec Ideal s .f32) (hv : IsPos v) : IsPos (Host.rsqrt v) := fun i => by
  obtain ⟨r, pr, er⟩ := hv i
  refine ⟨(Real.sqrt r)⁻¹, inv_pos.mpr (Real.sqrt_pos.mpr pr), ?_⟩
  show Ideal.rsqrt (v i) = _
  rw [er, Ideal.rsqrt_coe, if_neg (not_lt.mpr pr.le), if_neg (ne_of_gt pr)]

end Cert.RealArr

end
-- ==== Proof.LibRealDegree.lean ====
/-
  The inverse in-degree of the nodes of a graph is an array of real numbers.

  The in-degree is an accumulating scatter of ones into zeros: at each node it is zero plus a finite sum of
  ones, a real number. The inverse is chosen entry by entry: where the degree is above zero, one over the
  larger of the degree and one; elsewhere zero. The larger of a real number and one is a real number that is
  at least one, hence not zero, so the quotient of one by it is a real number; zero is a real number; and a
  choice between two real numbers is one of them. Spreading the result along further axes only reads
  entries. Nothing here depends on the shapes, on which places the scatter writes, or on how the constants
  are spread: every one of them is a variable.
-/
import Idealize.ShloMosaic.PureOps.Ideal.Laws
import Idealize.ShloMosaic.Lib.ValueIdx
import proofs.«125611_j42296837931009_2_alg».proof.Proof.LibRealArrays

noncomputable section

open Idealize.ShloMosaic Idealize.ShloMosaic.ValueIdx

open Cert.RealArr

namespace Cert.LibRealDegree

variable {s : Shape}

/-- Every entry is a real number other than zero. -/
def IsNonzeroReal {s : Shape} (v : s.Idx → EReal) : Prop := ∀ i, ∃ r : ℝ, r ≠ 0 ∧ v i = (r : EReal)

theorem IsNonzeroReal.isReal {v : s.Idx → EReal} (h : IsNonzeroReal v) : IsReal v :=
  fun i => let ⟨r, _, e⟩ := h i; ⟨r, e⟩

/-- The single-precision pattern `0x3F800000` is the number one. -/
theorem ofBits_one_f32 : Ideal.ofBits .f32 0x3F800000#32 = 1 := by
  simp [Ideal.ofBits, Ideal.ieee]
  have h : ((8388608 : ℝ) * ((2 : ℝ) ^ 23)⁻¹) = 1 := by norm_num
  exact_mod_cast h

/-- The coercion of a maximum of reals is the maximum of the coercions (the coercion is monotone). -/
theorem coe_real_max (a b : ℝ) : ((max a b : ℝ) : EReal) = max (a : EReal) (b : EReal) :=
  EReal.coe_strictMono.monotone.map_max

/-- The zero constant, spread over any shape along any axes, is zero at every place. -/
theorem splat_zero {S0 : Shape} (dims : Fin S0.rank → Fin s.rank) (h : S0.BroadcastsInDim s dims) (i : s.Idx) :
    broadcastInDim s dims h (constant (F := Ideal) S0 .f32 0x00000000#32) i = 0 :=
  Ideal.ofBits_zero_f32

/-- The same with the constant passed through the identity. -/
theorem splat_id_zero {S0 : Shape} (dims : Fin S0.rank → Fin s.rank) (h : S0.BroadcastsInDim s dims) (i : s.Idx) :
    broadcastInDim s dims h (id (constant (F := Ideal) S0 .f32 0x00000000#32)) i = 0 :=
  Ideal.ofBits_zero_f32

/-- The one constant, spread over any shape along any axes, is one at every place. -/
theorem splat_one {S0 : Shape} (dims : Fin S0.rank → Fin s.rank) (h : S0.BroadcastsInDim s dims) (i : s.Idx) :
    broadcastInDim s dims h (constant (F := Ideal) S0 .f32 0x3F800000#32) i = 1 :=
  ofBits_one_f32

/-- An array that is the same real number at every place is real. -/
theorem isReal_of_forall_eq {v : s.Idx → EReal} (r : ℝ) (h : ∀ i, v i = (r : EReal)) : IsReal v :=
  fun i => ⟨r, h i⟩

theorem isReal_of_forall_zero {v : s.Idx → EReal} (h : ∀ i, v i = 0) : IsReal v :=
  fun i => ⟨0, by rw [h i, EReal.coe_zero]⟩

theorem isReal_of_forall_one {v : s.Idx → EReal} (h : ∀ i, v i = 1) : IsReal v :=
  fun i => ⟨1, by rw [h i, EReal.coe_one]⟩

/-- The entrywise maximum of two real arrays is real. -/
theorem isReal_maximumf (x y : FVec Ideal s .f32) (hx : IsReal x) (hy : IsReal y) : IsReal (maximumf x y) := fun i => by
  obtain ⟨a, ea⟩ := hx i
  obtain ⟨b, eb⟩ := hy i
  refine ⟨max a b, ?_⟩
  show max (x i) (y i) = _
  rw [ea, eb, coe_real_max]

/-- The entrywise maximum of a real array and an array of ones is an array of nonzero reals (each at least one). -/
theorem nonzero_maximumf_one (x one : FVec Ideal s .f32) (hx : IsReal x) (hone : ∀ i, one i = 1) :
    IsNonzeroReal (maximumf x one) := fun i => by
  obtain ⟨a, ea⟩ := hx i
  refine ⟨max a 1, (lt_of_lt_of_le zero_lt_one (le_max_right a 1)).ne', ?_⟩
  show max (x i) (one i) = _
  rw [ea, hone i, coe_real_max, EReal.coe_one]

/-- The quotient (the host program's division) of a real array by an array of nonzero reals is real. -/
theorem isReal_hostDivf (x y : FVec Ideal s .f32) (hx : IsReal x) (hy : IsNonzeroReal y) : IsReal (Host.divf x y) := fun i => by
  obtain ⟨a, ea⟩ := hx i
  obtain ⟨b, hb, eb⟩ := hy i
  refine ⟨a / b, ?_⟩
  show Ideal.div (x i) (y i) = _
  rw [ea, eb, Ideal.div_coe hb, ← EReal.coe_mul, mul_one_div]

/-- The quotient (the device program's division) of a real array by an array of nonzero reals is real. -/
theorem isReal_divf (x y : FVec Ideal s .f32) (hx : IsReal x) (hy : IsNonzeroReal y) : IsReal (divf x y) := fun i => by
  obtain ⟨a, ea⟩ := hx i
  obtain ⟨b, hb, eb⟩ := hy i
  refine ⟨a / b, ?_⟩
  show Ideal.div (x i) (y i) = _
  rw [ea, eb, Ideal.div_coe hb, ← EReal.coe_mul, mul_one_div]

/-- An entrywise choice between two real arrays is real, whatever the choosing bits are. -/
theorem isReal_select (c : IVec s 1) (a b : s.Idx → EReal) (ha : IsReal a) (hb : IsReal b) : IsReal (select c a b) := fun i => by
  show ∃ r : ℝ, Scalar.select (c i) (a i) (b i) = (r : EReal)
  unfold Scalar.select
  split
  · exact ha i
  · exact hb i

/-- The inverse degree, each constant array a variable known only by its entries: where `deg` is above `z`,
    one over the larger of `deg` and one; elsewhere zero. Real whenever `deg` is. -/
theorem isReal_invDegree (deg z one one' z' : FVec Ideal s .f32) (hdeg : IsReal deg) (hone : ∀ i, one i = 1)
    (hone' : ∀ i, one' i = 1) (hz' : ∀ i, z' i = 0) :
    IsReal (select (cmpf .ogt deg z) (Host.divf one (maximumf deg one')) z') :=
  isReal_select _ _ _
    (isReal_hostDivf one (maximumf deg one') (isReal_of_forall_one hone) (nonzero_maximumf_one deg one' hdeg hone'))
    (isReal_of_forall_zero hz')

/-- The degree: an accumulating scatter of an array of ones into an array of zeros is real. -/
theorem isReal_degree {si u : Shape} {w : Nat} (d : ScatterDims s si u) (z : FVec Ideal s .f32) (idx : IVec si w)
    (o : FVec Ideal u .f32) (hz : ∀ i, z i = 0) (ho : ∀ j, o j = 1) : IsReal (Host.scatterAdd d z idx o) :=
  Cert.RealArr.scatterAdd d z idx o (isReal_of_forall_zero hz) (isReal_of_forall_one ho)

/-- The inverse-degree column as the two programs spell it, every shape, scatter record, axis map and shape
    witness a variable: the degree is the scatter of the spread one constant into the spread zero constant; the
    inverse is chosen against the spread zero constant between one over the larger of degree and one, and
    zero; the result is spread to a further shape. It is an array of real numbers. -/
theorem isReal_invDegreeCol {S0 sN si sE sC : Shape} {w : Nat} (d : ScatterDims sN si sE) (idx : IVec si w)
    (dimsN : Fin S0.rank → Fin sN.rank) (hN : S0.BroadcastsInDim sN dimsN)
    (dimsE : Fin S0.rank → Fin sE.rank) (hE : S0.BroadcastsInDim sE dimsE)
    (dimsC : Fin sN.rank → Fin sC.rank) (hC : sN.BroadcastsInDim sC dimsC) :
    IsReal (broadcastInDim sC dimsC hC
      (select
        (cmpf .ogt
          (Host.scatterAdd d (broadcastInDim sN dimsN hN (constant (F := Ideal) S0 .f32 0x00000000#32)) idx
            (broadcastInDim sE dimsE hE (constant (F := Ideal) S0 .f32 0x3F800000#32)))
          (broadcastInDim sN dimsN hN (constant (F := Ideal) S0 .f32 0x00000000#32)))
        (Host.divf (broadcastInDim sN dimsN hN (constant (F := Ideal) S0 .f32 0x3F800000#32))
          (maximumf
            (Host.scatterAdd d (broadcastInDim sN dimsN hN (constant (F := Ideal) S0 .f32 0x00000000#32)) idx
              (broadcastInDim sE dimsE hE (constant (F := Ideal) S0 .f32 0x3F800000#32)))
            (broadcastInDim sN dimsN hN (constant (F := Ideal) S0 .f32 0x3F800000#32))))
        (broadcastInDim sN dimsN hN (id (constant (F := Ideal) S0 .f32 0x00000000#32))))) :=
  Cert.RealArr.bcast dimsC hC _
    (isReal_invDegree _ _ _ _ _
      (isReal_degree d _ idx _ (splat_zero dimsN hN) (splat_one dimsE hE))
      (splat_one dimsN hN) (splat_one dimsN hN) (splat_id_zero dimsN hN))

end Cert.LibRealDegree

end
-- ==== Proof.RefRead.lean ====
/-
  The reference program read at explicit coordinates, over the extended reals.

  The program is two rounds of mean aggregation over a graph followed by a rectifier and a row-wise
  log-soft-max. Each lemma reads one stage at a row `r` and a column, in the scalar forms of the
  specification:

  * a dense product at `(r, j)` is the sum over `q` of the left factor at `(r, q)` times the right factor at `(q, j)`;
  * the first layer at `(r, k)` is the quotient-or-zero form `mixDiv` of the aggregated messages at `(r, k)`, the
    bias at `k`, the node's own projection at `(r, k)` and the in-degree of `r`;
  * the second layer is the same form followed by the maximum with zero; the in-degree it divides by is
    computed a second time by the program, by the same operations on the same operands, so it is the same array;
  * the last stage at `(r, j)` is the log-soft-max of row `r` of the rectified values: the row maximum is a fold
    from minus infinity (one more maximum with minus infinity changes nothing), and the sum of exponentials
    starts from zero;
  * the in-degree is zero plus a finite sum of ones at every node, a real number.
-/
import proofs.«125611_j42296837931009_2_alg».proof.Proof.RefReadP
import proofs.«125611_j42296837931009_2_alg».proof.Proof.Spec
import proofs.«125611_j42296837931009_2_alg».proof.Proof.LibHostReads
import proofs.«125611_j42296837931009_2_alg».proof.Proof.LibRealDegree

noncomputable section

namespace Cert.Sage.Ref

open Cert.ReferenceIdeal Cert.ReferenceIdeal.Gen Idealize.ShloMosaic Idealize.ShloMosaic.ValueIdx

variable (x0 : (⟨S50000x1433, .f32⟩ : BufTy).Contents (Elt Ideal))
variable (x1 : (⟨S2x800000, .i32⟩ : BufTy).Contents (Elt Ideal))
variable (x2 : (⟨S1433x64, .f32⟩ : BufTy).Contents (Elt Ideal))
variable (x3 : (⟨S64, .f32⟩ : BufTy).Contents (Elt Ideal))
variable (x4 : (⟨S1433x64, .f32⟩ : BufTy).Contents (Elt Ideal))
variable (x5 : (⟨S64x32, .f32⟩ : BufTy).Contents (Elt Ideal))
variable (x6 : (⟨S32, .f32⟩ : BufTy).Contents (Elt Ideal))
variable (x7 : (⟨S64x32, .f32⟩ : BufTy).Contents (Elt Ideal))

/-! ## Dense products at an entry -/

/-- The first layer's neighbour projection at `(r, k)`. -/
theorem v4_at (r : Fin 50000) (k : Fin 64) :
    ReadP.val_main_v4 (F := Ideal) x0 x2 (ix2 r k) = ∑ q : Fin 1433, x0 (ix2 r q) * x2 (ix2 q k) := by
  rw [ReadP.val_main_v4_apply]
  refine Finset.sum_congr rfl fun q _ => ?_
  have el : ReadP.lidx_main_v4 (ix2 r k) q = ix2 r q := funext fun a => Fin.ext (by match a with | ⟨0, _⟩ => rfl | ⟨1, _⟩ => rfl)
  have er : ReadP.ridx_main_v4 (ix2 r k) q = ix2 q k := funext fun a => Fin.ext (by match a with | ⟨0, _⟩ => rfl | ⟨1, _⟩ => rfl)
  rw [el, er]

/-- The first layer's own projection at `(r, k)`. -/
theorem v31_at (r : Fin 50000) (k : Fin 64) :
    ReadP.val_main_v31 (F := Ideal) x0 x4 (ix2 r k) = ∑ q : Fin 1433, x0 (ix2 r q) * x4 (ix2 q k) := by
  rw [ReadP.val_main_v31_apply]
  refine Finset.sum_congr rfl fun q _ => ?_
  have el : ReadP.lidx_main_v31 (ix2 r k) q = ix2 r q := funext fun a => Fin.ext (by match a with | ⟨0, _⟩ => rfl | ⟨1, _⟩ => rfl)
  have er : ReadP.ridx_main_v31 (ix2 r k) q = ix2 q k := funext fun a => Fin.ext (by match a with | ⟨0, _⟩ => rfl | ⟨1, _⟩ => rfl)
  rw [el, er]

/-- The second layer's neighbour projection at `(r, j)`. -/
theorem v33_at (r : Fin 50000) (j : Fin 32) :
    ReadP.val_main_v33 (F := Ideal) x0 x1 x2 x3 x4 x5 (ix2 r j)
      = ∑ q : Fin 64, ReadP.val_main_v32 (F := Ideal) x0 x1 x2 x3 x4 (ix2 r q) * x5 (ix2 q j) := by
  rw [ReadP.val_main_v33_apply]
  refine Finset.sum_congr rfl fun q _ => ?_
  have el : ReadP.lidx_main_v33 (ix2 r j) q = ix2 r q := funext fun a => Fin.ext (by match a with | ⟨0, _⟩ => rfl | ⟨1, _⟩ => rfl)
  have er : ReadP.ridx_main_v33 (ix2 r j) q = ix2 q j := funext fun a => Fin.ext (by match a with | ⟨0, _⟩ => rfl | ⟨1, _⟩ => rfl)
  rw [el, er]

/-- The second layer's own projection at `(r, j)`. -/
theorem v60_at (r : Fin 50000) (j : Fin 32) :
    ReadP.val_main_v60 (F := Ideal) x0 x1 x2 x3 x4 x7 (ix2 r j)
      = ∑ q : Fin 64, ReadP.val_main_v32 (F := Ideal) x0 x1 x2 x3 x4 (ix2 r q) * x7 (ix2 q j) := by
  rw [ReadP.val_main_v60_apply]
  refine Finset.sum_congr rfl fun q _ => ?_
  have el : ReadP.lidx_main_v60 (ix2 r j) q = ix2 r q := funext fun a => Fin.ext (by match a with | ⟨0, _⟩ => rfl | ⟨1, _⟩ => rfl)
  have er : ReadP.ridx_main_v60 (ix2 r j) q = ix2 q j := funext fun a => Fin.ext (by match a with | ⟨0, _⟩ => rfl | ⟨1, _⟩ => rfl)
  rw [el, er]

/-! ## The first layer -/

/-- The first layer at `(r, k)`: the aggregate over the larger of the in-degree and one where the in-degree is
    above zero, zero elsewhere; plus the bias at `k`; plus the node's own projection. -/
theorem v32_at (r : Fin 50000) (k : Fin 64) :
    ReadP.val_main_v32 (F := Ideal) x0 x1 x2 x3 x4 (ix2 r k)
      = Cert.Sage.mixDiv (ReadP.val_main_v14 (F := Ideal) x0 x1 x2 (ix2 r k)) (x3 (ix1 k))
          (ReadP.val_main_v31 (F := Ideal) x0 x4 (ix2 r k)) (ReadP.val_main_v18 (F := Ideal) x1 (ix1 r)) := by
  have e1 : ReadP.idx_main_v19 (ReadP.idx_main_call0_v1 (ix2 r k)) = ix1 r := funext fun a => Fin.ext (by match a with | ⟨0, _⟩ => rfl)
  have e2 : ReadP.idx_main_v24 (ReadP.idx_main_v25 (ix2 r k)) = ix1 r := funext fun a => Fin.ext (by match a with | ⟨0, _⟩ => rfl)
  have e3 : ReadP.idx_main_v28 (ReadP.idx_main_v29 (ix2 r k)) = ix1 k := funext fun a => Fin.ext (by match a with | ⟨0, _⟩ => rfl)
  rw [ReadP.val_main_v32_apply, ReadP.val_main_v30_apply, ReadP.val_main_v27_apply,
    ReadP.val_main_call0_v1_apply, ReadP.val_main_v21_apply, ReadP.val_main_v19_apply, ReadP.val_main_v20_apply,
    ReadP.val_main_cst_3_apply,
    ReadP.val_main_v26_apply, ReadP.val_main_v25_apply, ReadP.val_main_v24_apply, ReadP.val_main_v23_apply,
    ReadP.val_main_v22_apply, ReadP.val_main_cst_4_apply,
    ReadP.val_main_call0_v2_apply, ReadP.val_main_call0_v0_apply, ReadP.val_main_cst_5_apply,
    ReadP.val_main_v29_apply, ReadP.val_main_v28_apply, e1, e2, e3]
  simp only [Ideal.addf_def, Ideal.maximumf_def, Ideal.hostDivf_def, Ideal.ofBits_def]
  rfl

/-! ## The second layer and the rectifier -/

/-- The in-degree is computed twice, by the same operations on the same operands. -/
theorem v47_eq_v18 : ReadP.val_main_v47 (F := Ideal) x1 = ReadP.val_main_v18 (F := Ideal) x1 := rfl

/-- The rectified second layer at `(r, c)`: the same form as the first layer, then the maximum with zero. -/
theorem v62_at (r : Fin 50000) (c : Fin 32) :
    ReadP.val_main_v62 (F := Ideal) x0 x1 x2 x3 x4 x5 x6 x7 (ix2 r c)
      = max (Cert.Sage.mixDiv (ReadP.val_main_v43 (F := Ideal) x0 x1 x2 x3 x4 x5 (ix2 r c)) (x6 (ix1 c))
          (ReadP.val_main_v60 (F := Ideal) x0 x1 x2 x3 x4 x7 (ix2 r c)) (ReadP.val_main_v18 (F := Ideal) x1 (ix1 r)))
          Cert.Sage.zeroW := by
  have e1 : ReadP.idx_main_v48 (ReadP.idx_main_call1_v1 (ix2 r c)) = ix1 r := funext fun a => Fin.ext (by match a with | ⟨0, _⟩ => rfl)
  have e2 : ReadP.idx_main_v53 (ReadP.idx_main_v54 (ix2 r c)) = ix1 r := funext fun a => Fin.ext (by match a with | ⟨0, _⟩ => rfl)
  have e3 : ReadP.idx_main_v57 (ReadP.idx_main_v58 (ix2 r c)) = ix1 c := funext fun a => Fin.ext (by match a with | ⟨0, _⟩ => rfl)
  rw [ReadP.val_main_v62_apply, ReadP.val_main_v61_apply, ReadP.val_main_v59_apply, ReadP.val_main_v56_apply,
    ReadP.val_main_call1_v1_apply, ReadP.val_main_v50_apply, ReadP.val_main_v48_apply, ReadP.val_main_v49_apply,
    ReadP.val_main_cst_11_apply,
    ReadP.val_main_v55_apply, ReadP.val_main_v54_apply, ReadP.val_main_v53_apply, ReadP.val_main_v52_apply,
    ReadP.val_main_v51_apply, ReadP.val_main_cst_12_apply,
    ReadP.val_main_call1_v2_apply, ReadP.val_main_call1_v0_apply, ReadP.val_main_cst_13_apply,
    ReadP.val_main_v58_apply, ReadP.val_main_v57_apply,
    ReadP.val_main_call2_v0_apply, ReadP.val_main_call2_cst_apply, e1, e2, e3, v47_eq_v18]
  simp only [Ideal.addf_def, Ideal.maximumf_def, Ideal.hostDivf_def, Ideal.ofBits_def]
  rfl

/-! ## The log-soft-max -/

/-- The shift of row `r`: the maximum of the row of rectified values, folded from minus infinity. -/
theorem rowMax_at (r : Fin 50000) :
    ReadP.val_main_call3_v2 (F := Ideal) x0 x1 x2 x3 x4 x5 x6 x7 (ix1 r)
      = (Finset.univ : Finset (Fin 32)).fold max Cert.Sage.negInfW
          (fun c => ReadP.val_main_v62 (F := Ideal) x0 x1 x2 x3 x4 x5 x6 x7 (ix2 r c)) := by
  rw [ReadP.val_main_call3_v2_apply, ReadP.val_main_call3_v1_apply, ReadP.val_main_call3_cst_0_apply]
  unfold ReadP.val_main_call3_v0
  rw [Cert.LibHostReads.hostRowMax_apply, ReadP.val_main_call3_cst_apply]
  simp only [Ideal.maximumf_def, Ideal.ofBits_def]
  rw [Cert.Rows.neg_inf_max]

/-- The shifted row at `(r, c)`. -/
theorem shift_at (r : Fin 50000) (c : Fin 32) :
    ReadP.val_main_call3_v5 (F := Ideal) x0 x1 x2 x3 x4 x5 x6 x7 (ix2 r c)
      = ReadP.val_main_v62 (F := Ideal) x0 x1 x2 x3 x4 x5 x6 x7 (ix2 r c)
        - (Finset.univ : Finset (Fin 32)).fold max Cert.Sage.negInfW
            (fun c' => ReadP.val_main_v62 (F := Ideal) x0 x1 x2 x3 x4 x5 x6 x7 (ix2 r c')) := by
  have e : ReadP.idx_main_call3_v3 (ReadP.idx_main_call3_v4 (ix2 r c)) = ix1 r := funext fun a => Fin.ext (by match a with | ⟨0, _⟩ => rfl)
  rw [ReadP.val_main_call3_v5_apply, ReadP.val_main_call3_v4_apply, ReadP.val_main_call3_v3_apply, e, rowMax_at]
  rfl

/-- The result at `(r, j)`: the log-soft-max of row `r` of the rectified second layer. -/
theorem v63_at (r : Fin 50000) (j : Fin 32) :
    ReadP.val_main_v63 (F := Ideal) x0 x1 x2 x3 x4 x5 x6 x7 (ix2 r j)
      = Cert.Sage.logSoftmaxRow (fun c : Fin 32 => ReadP.val_main_v62 (F := Ideal) x0 x1 x2 x3 x4 x5 x6 x7 (ix2 r c)) j := by
  have e2 : ReadP.idx_main_call3_v8 (ReadP.idx_main_call3_v10 (ix2 r j)) = ix1 r := funext fun a => Fin.ext (by match a with | ⟨0, _⟩ => rfl)
  have e3 : ∀ k : Fin 32, ReadP.idx_main_call3_v7 (ix1 r) k = ix2 r k := fun k => funext fun a => Fin.ext (by match a with | ⟨0, _⟩ => rfl | ⟨1, _⟩ => rfl)
  have hs : ∀ k : Fin 32, ReadP.val_main_call3_v6 (F := Ideal) x0 x1 x2 x3 x4 x5 x6 x7 (ReadP.idx_main_call3_v7 (ix1 r) k)
      = Ideal.exp (ReadP.val_main_v62 (F := Ideal) x0 x1 x2 x3 x4 x5 x6 x7 (ix2 r k)
        - (Finset.univ : Finset (Fin 32)).fold max Cert.Sage.negInfW
            (fun c' => ReadP.val_main_v62 (F := Ideal) x0 x1 x2 x3 x4 x5 x6 x7 (ix2 r c'))) := fun k => by
    rw [e3 k, ReadP.val_main_call3_v6_apply, shift_at, Ideal.hostUnary_exp_def]
  rw [ReadP.val_main_v63_apply, ReadP.val_main_call3_v10_apply, ReadP.val_main_call3_v9_apply,
    ReadP.val_main_call3_v8_apply, e2, ReadP.val_main_call3_v7_apply, ReadP.val_main_call3_cst_1_apply, shift_at,
    Finset.sum_congr rfl (fun k _ => hs k)]
  simp only [Ideal.subf_def, Ideal.hostUnary_log_def, Ideal.ofBits_def]
  rw [show Ideal.ofBits .f32 0x00000000#32 = (0 : EReal) from Cert.Sage.zeroW_eq, zero_add]
  rfl

/-! ## The in-degree is real -/

/-- The in-degree of every node is a real number: zero plus a finite sum of ones. -/
theorem deg_real : ∀ r : Fin 50000, ∃ d : ℝ, ReadP.val_main_v18 (F := Ideal) x1 (ix1 r) = (d : EReal) := fun r =>
  Cert.LibRealDegree.isReal_degree scatter_S50000_S800000x1_S800000_n_0_0_1 (ReadP.val_main_v16 (F := Ideal))
    (ReadP.val_main_v17 (F := Ideal) x1) (ReadP.val_main_v15 (F := Ideal))
    (fun i => Cert.LibRealDegree.splat_zero _ bcast_S_S50000 i)
    (fun j => Cert.LibRealDegree.splat_one _ bcast_S_S800000 j) (ix1 r)

end Cert.Sage.Ref

end
-- ==== Proof.LibSideBySide.lean ====
/-
  Two matrices side by side, column ranges of a matrix, and a vector as a one-row matrix, read at coordinates.

  Concatenating a `[K, a]` and a `[K, b]` matrix along the second axis gives a `[K, n]` matrix whose column `j' < a`
  is column `j'` of the first and whose column `a + j` is column `j` of the second. Cutting columns `o … o + w - 1`
  out of an `[M, n]` matrix reads, at `(r, k)`, the matrix at `(r, o + k)`. A length-`n` vector recast as a
  `[1, n]` matrix reads, at `(0, k)`, the vector at `k`. So a product with two weight matrices side by side, cut
  back into its two column halves, is the two products. Every extent and the element type are variables.
-/
import Idealize.ShloMosaic.Lib.Pipeline.Value
import Idealize.ShloMosaic.Lib.ValueIdx

noncomputable section

namespace Cert.LibSideBySide

open Idealize.ShloMosaic Idealize.ShloMosaic.ValueIdx

/-- A column of the left matrix. -/
theorem side_left {α : Type} {K a b n : ℕ} (x₁ : (⟨2, ![K, a]⟩ : Shape).Idx → α) (x₂ : (⟨2, ![K, b]⟩ : Shape).Idx → α)
    (h : Shape.Concatenates [(⟨2, ![K, a]⟩ : Shape), ⟨2, ![K, b]⟩] ⟨2, ![K, n]⟩ (1 : Fin 2)) (k : Fin K) (j : Fin a) (j' : Fin n)
    (hj : j'.val = j.val) :
    concatenate ⟨2, ![K, n]⟩ 1 [⟨⟨2, ![K, a]⟩, x₁⟩, ⟨⟨2, ![K, b]⟩, x₂⟩] h (ix2 k j') = x₁ (ix2 k j) :=
  concatenate_pair_apply_left 1 x₁ x₂ h (ix2 k j') rfl (ix2 k j)
    (fun c => by match c with | ⟨0, _⟩ => rfl | ⟨1, _⟩ => exact hj.symm)

/-- A column of the right matrix. -/
theorem side_right {α : Type} {K a b n : ℕ} (x₁ : (⟨2, ![K, a]⟩ : Shape).Idx → α) (x₂ : (⟨2, ![K, b]⟩ : Shape).Idx → α)
    (h : Shape.Concatenates [(⟨2, ![K, a]⟩ : Shape), ⟨2, ![K, b]⟩] ⟨2, ![K, n]⟩ (1 : Fin 2)) (k : Fin K) (j : Fin b) (j' : Fin n)
    (hj : j'.val = a + j.val) :
    concatenate ⟨2, ![K, n]⟩ 1 [⟨⟨2, ![K, a]⟩, x₁⟩, ⟨⟨2, ![K, b]⟩, x₂⟩] h (ix2 k j') = x₂ (ix2 k j) :=
  concatenate_pair_apply_right 1 x₁ x₂ h (ix2 k j') rfl rfl (ix2 k j)
    (fun c hc => by match c with | ⟨0, _⟩ => rfl | ⟨1, _⟩ => exact absurd rfl hc)
    (by show j.val + a = j'.val; omega)

/-- Columns `o, …, o + w - 1` of a matrix, read at `(r, k)`. -/
theorem cols_at {α : Type} {M n w : ℕ} (o : ℕ) (x : (⟨2, ![M, n]⟩ : Shape).Idx → α)
    (h : (⟨2, ![M, n]⟩ : Shape).Slices ![0, o] ⟨2, ![M, w]⟩) (r : Fin M) (k : Fin w) (k' : Fin n) (hk : k'.val = o + k.val) :
    extractStridedSlice ⟨2, ![M, w]⟩ ![0, o] x h (ix2 r k) = x (ix2 r k') :=
  extractStridedSlice_apply ![0, o] x h (ix2 r k) (ix2 r k') (fun c => by
    match c with
    | ⟨0, _⟩ => show r.val = 0 + r.val; omega
    | ⟨1, _⟩ => exact hk)

/-- A vector recast as a one-row matrix, read at `(0, k)`. -/
theorem row_at {α : Type} {n : ℕ} (v : (⟨1, ![n]⟩ : Shape).Idx → α) (h : (⟨1, ![n]⟩ : Shape).ShapeCasts ⟨2, ![1, n]⟩) (k : Fin n) :
    shapeCast ⟨2, ![1, n]⟩ v h (ix2 0 k) = v (ix1 k) :=
  shapeCast_apply v h (ix2 0 k) (ix1 k) (by
    rw [Shape.rowMajor_val_one, Shape.rowMajor_val_two]; show k.val = 0 * n + k.val; omega)

end Cert.LibSideBySide

end
-- ==== Proof.Bridge.lean ====
/-
  The kernel's arrays are the reference's stages.

  With the features `x0`, the edge list `x1`, the layer weights `x2, x4` and `x5, x7` and the biases `x3, x6`:
  the first pass's output, cut into its two column halves, is `x0 · x2` and `x0 · x4` (a product with two matrices
  side by side is the two products side by side); gathering and adding up the message half along the edges is the
  reference's aggregation; the multiplier column at row `r` is the multiplier of the degree of node `r`; so an
  entry of the second pass's mixed row is the reference's layer-one entry (the degree is a real number, where
  multiplying by the chosen reciprocal and choosing between quotient and zero agree), and the second pass's two
  halves are that layer times `x5` and times `x7`; and the third pass's output is the reference's result.
-/
import proofs.«125611_j42296837931009_2_alg».proof.Proof.Regions
import proofs.«125611_j42296837931009_2_alg».proof.Proof.KHost
import proofs.«125611_j42296837931009_2_alg».proof.Proof.RefRead
import proofs.«125611_j42296837931009_2_alg».proof.Proof.LibSideBySide

set_option maxRecDepth 16384

noncomputable section

namespace Cert.Sage.Bridge

open Cert.KernelIdeal Cert.KernelIdeal.Gen Cert.KernelIdeal.Pass Cert.KernelIdeal.Host Cert.Sage
open Idealize.ShloMosaic Idealize.ShloMosaic.ValueIdx Cert.LibSideBySide

variable (x0 : (⟨S50000x1433, .f32⟩ : BufTy).Contents (Elt Ideal)) (x1 : (⟨S2x800000, .i32⟩ : BufTy).Contents (Elt Ideal))
  (x2 : (⟨S1433x64, .f32⟩ : BufTy).Contents (Elt Ideal)) (x3 : (⟨S64, .f32⟩ : BufTy).Contents (Elt Ideal))
  (x4 : (⟨S1433x64, .f32⟩ : BufTy).Contents (Elt Ideal)) (x5 : (⟨S64x32, .f32⟩ : BufTy).Contents (Elt Ideal))
  (x6 : (⟨S32, .f32⟩ : BufTy).Contents (Elt Ideal)) (x7 : (⟨S64x32, .f32⟩ : BufTy).Contents (Elt Ideal))

/-! ## The first pass -/

/-- The message half of the first pass's output is `x0 · x2`. -/
theorem pass0_lo : extractStridedSlice S50000x64 ![0, 0]
      (prod0 x0 (weights1 x2 x4)) slices_S50000x128_S50000x64_0_0
    = Cert.ReferenceIdeal.ReadP.val_main_v4 (F := Ideal) x0 x2 := by
  funext i
  obtain ⟨r, k, rfl⟩ : ∃ (r : Fin 50000) (k : Fin 64), i = ix2 r k := ⟨i 0, i 1, eq_ix2 i⟩
  refine (cols_at 0 _ _ r k ⟨0 + k.val, by have := k.isLt; omega⟩ rfl).trans ?_
  rw [Cert.Sage.Ref.v4_at x0 x2 r k]
  show ∑ q : Fin 1433, x0 (ix2 r q) * weights1 x2 x4 (ix2 q _) = _
  refine Finset.sum_congr rfl fun q _ => ?_
  unfold weights1
  exact congrArg (_ * ·) (side_left x2 x4 _ q k _ (by show 0 + k.val = k.val; omega))

/-- The self half of the first pass's output is `x0 · x4`. -/
theorem pass0_hi : extractStridedSlice S50000x64 ![0, 64]
      (prod0 x0 (weights1 x2 x4)) slices_S50000x128_S50000x64_0_64
    = Cert.ReferenceIdeal.ReadP.val_main_v31 (F := Ideal) x0 x4 := by
  funext i
  obtain ⟨r, k, rfl⟩ : ∃ (r : Fin 50000) (k : Fin 64), i = ix2 r k := ⟨i 0, i 1, eq_ix2 i⟩
  refine (cols_at 64 _ _ r k ⟨64 + k.val, by have := k.isLt; omega⟩ rfl).trans ?_
  rw [Cert.Sage.Ref.v31_at x0 x4 r k]
  show ∑ q : Fin 1433, x0 (ix2 r q) * weights1 x2 x4 (ix2 q _) = _
  refine Finset.sum_congr rfl fun q _ => ?_
  unfold weights1
  exact congrArg (_ * ·) (side_right x2 x4 _ q k _ rfl)

/-! ## The whole-array operations between the passes -/

/-- The in-degree is the reference's. -/
theorem degree_eq : degree x1 = Cert.ReferenceIdeal.ReadP.val_main_v18 (F := Ideal) x1 := by
  unfold degree dstVec
  unfold Cert.ReferenceIdeal.ReadP.val_main_v18 Cert.ReferenceIdeal.ReadP.val_main_v16 Cert.ReferenceIdeal.ReadP.val_main_v17 Cert.ReferenceIdeal.ReadP.val_main_v15 Cert.ReferenceIdeal.ReadP.val_main_cst_2 Cert.ReferenceIdeal.ReadP.val_main_cst_1 Cert.ReferenceIdeal.ReadP.val_main_v3 Cert.ReferenceIdeal.ReadP.val_main_v2
  rfl

/-- An accumulating scatter, and a gather, of equal operands under equal dimension records. -/
theorem scatter_congr {s si u : Shape} (d d' : ScatterDims s si u) (hd : d = d') (z z' : FVec Ideal s .f32) (hz : z = z')
    (i i' : IVec si 32) (hi : i = i') (v v' : FVec Ideal u .f32) (hv : v = v') :
    Host.scatterAdd (F := Ideal) d z i v = Host.scatterAdd (F := Ideal) d' z' i' v' := by
  subst hd hz hi hv; rfl

theorem gather_congr {s si t : Shape} (d d' : GatherDims s si t) (hd : d = d') (x x' : FVec Ideal s .f32) (hx : x = x')
    (i i' : IVec si 32) (hi : i = i') : Host.gather d x i = Host.gather d' x' i' := by
  subst hd hx hi; rfl

/-- The wrapped source index column is the reference's (both layers compute it, the same way). -/
theorem srcCol_eq10 : srcCol x1 = Cert.ReferenceIdeal.ReadP.val_main_v10 (F := Ideal) x1 := by
  unfold srcCol
  unfold Cert.ReferenceIdeal.ReadP.val_main_v10 Cert.ReferenceIdeal.ReadP.val_main_v9 Cert.ReferenceIdeal.ReadP.val_main_v6 Cert.ReferenceIdeal.ReadP.val_main_v8 Cert.ReferenceIdeal.ReadP.val_main_v7 Cert.ReferenceIdeal.ReadP.val_main_v5 Cert.ReferenceIdeal.ReadP.val_main_c Cert.ReferenceIdeal.ReadP.val_main_c_0
  rfl

theorem srcCol_eq39 : srcCol x1 = Cert.ReferenceIdeal.ReadP.val_main_v39 (F := Ideal) x1 := by
  unfold srcCol
  unfold Cert.ReferenceIdeal.ReadP.val_main_v39 Cert.ReferenceIdeal.ReadP.val_main_v38 Cert.ReferenceIdeal.ReadP.val_main_v35 Cert.ReferenceIdeal.ReadP.val_main_v37 Cert.ReferenceIdeal.ReadP.val_main_v36 Cert.ReferenceIdeal.ReadP.val_main_v34 Cert.ReferenceIdeal.ReadP.val_main_c_6 Cert.ReferenceIdeal.ReadP.val_main_c_7
  rfl

/-- Layer-one aggregation is the reference's. -/
theorem aggregate64_eq : aggregate64 x1 (Cert.ReferenceIdeal.ReadP.val_main_v4 (F := Ideal) x0 x2)
    = Cert.ReferenceIdeal.ReadP.val_main_v14 (F := Ideal) x0 x1 x2 := by
  unfold aggregate64
  unfold Cert.ReferenceIdeal.ReadP.val_main_v14 Cert.ReferenceIdeal.ReadP.val_main_v11
  exact scatter_congr _ _ rfl _ _ rfl _ _ rfl _ _ (gather_congr _ _ rfl _ _ rfl _ _ (srcCol_eq10 x1))

/-- Layer-two aggregation is the reference's. -/
theorem aggregate32_eq : aggregate32 x1 (Cert.ReferenceIdeal.ReadP.val_main_v33 (F := Ideal) x0 x1 x2 x3 x4 x5)
    = Cert.ReferenceIdeal.ReadP.val_main_v43 (F := Ideal) x0 x1 x2 x3 x4 x5 := by
  unfold aggregate32
  unfold Cert.ReferenceIdeal.ReadP.val_main_v43 Cert.ReferenceIdeal.ReadP.val_main_v40
  exact scatter_congr _ _ rfl _ _ rfl _ _ rfl _ _ (gather_congr _ _ rfl _ _ rfl _ _ (srcCol_eq39 x1))

/-- The host's quotient at an entry, and a spread float constant at an entry. -/
theorem hostDivf_at {s : Shape} (a b : FVec Ideal s .f32) (i : s.Idx) : Host.divf (F := Ideal) a b i = Ideal.div (a i) (b i) := rfl

theorem splat_at {S0 s : Shape} (dims : Fin S0.rank → Fin s.rank) (h : S0.BroadcastsInDim s dims) (w : BitVec 32) (i : s.Idx) :
    broadcastInDim s dims h (constant (F := Ideal) S0 .f32 w) i = Ideal.ofBits .f32 w := rfl

theorem splat_id_at {S0 s : Shape} (dims : Fin S0.rank → Fin s.rank) (h : S0.BroadcastsInDim s dims) (w : BitVec 32) (i : s.Idx) :
    broadcastInDim s dims h (id (constant (F := Ideal) S0 .f32 w)) i = Ideal.ofBits .f32 w := rfl

/-- The multiplier column at row `r` is the multiplier of node `r`'s degree. -/
theorem degCol_at (r : Fin 50000) : degCol x1 (ix2 r 0) = invDeg (Cert.ReferenceIdeal.ReadP.val_main_v18 (F := Ideal) x1 (ix1 r)) := by
  unfold degCol
  rw [Cert.Rows.cast_col, degree_eq, select_apply, cmpf_apply, hostDivf_at, maximumf_apply, splat_at, splat_at,
    splat_id_at]
  generalize Cert.ReferenceIdeal.ReadP.val_main_v18 (F := Ideal) x1 (ix1 r) = D
  rfl

/-- An entry of the second pass's mixed row is the reference's layer-one entry. -/
theorem mix1_at (r : Fin 50000) (k : Fin 64) :
    (Cert.ReferenceIdeal.ReadP.val_main_v14 (F := Ideal) x0 x1 x2 (ix2 r k) * degCol x1 (ix2 r 0) + shapeCast S1x64 x3 shapeCasts_S64_S1x64 (ix2 0 k))
      + Cert.ReferenceIdeal.ReadP.val_main_v31 (F := Ideal) x0 x4 (ix2 r k)
    = Cert.ReferenceIdeal.ReadP.val_main_v32 (F := Ideal) x0 x1 x2 x3 x4 (ix2 r k) := by
  rw [degCol_at, row_at, Cert.Sage.Ref.v32_at x0 x1 x2 x3 x4 r k]
  exact mixMul_eq_mixDiv _ _ _ _ (Cert.Sage.Ref.deg_real x1 r)

/-! ## The second pass -/

/-- The message half of the second pass's output is the layer-one output times `x5`. -/
theorem pass1_lo : extractStridedSlice S50000x32 ![0, 0]
      (prod1 (Cert.ReferenceIdeal.ReadP.val_main_v14 (F := Ideal) x0 x1 x2) (Cert.ReferenceIdeal.ReadP.val_main_v31 (F := Ideal) x0 x4) (degCol x1)
        (shapeCast S1x64 x3 shapeCasts_S64_S1x64) (weights2 x5 x7)) slices_S50000x64_S50000x32_0_0
    = Cert.ReferenceIdeal.ReadP.val_main_v33 (F := Ideal) x0 x1 x2 x3 x4 x5 := by
  funext i
  obtain ⟨r, k, rfl⟩ : ∃ (r : Fin 50000) (k : Fin 32), i = ix2 r k := ⟨i 0, i 1, eq_ix2 i⟩
  refine (cols_at 0 _ _ r k ⟨0 + k.val, by have := k.isLt; omega⟩ rfl).trans ?_
  rw [Cert.Sage.Ref.v33_at x0 x1 x2 x3 x4 x5 r k]
  show ∑ q : Fin 64, ((Cert.ReferenceIdeal.ReadP.val_main_v14 (F := Ideal) x0 x1 x2 (ix2 r q) * degCol x1 (ix2 r 0)
      + shapeCast S1x64 x3 shapeCasts_S64_S1x64 (ix2 0 q)) + Cert.ReferenceIdeal.ReadP.val_main_v31 (F := Ideal) x0 x4 (ix2 r q)) * weights2 x5 x7 (ix2 q _) = _
  refine Finset.sum_congr rfl fun q _ => ?_
  rw [mix1_at]
  unfold weights2
  have hs := side_left x5 x7 concatenates_S64x32_S64x32_S64x64_d1 q k ⟨0 + k.val, by have := k.isLt; omega⟩
    (by show 0 + k.val = k.val; omega)
  rw [hs]

/-- The self half of the second pass's output is the layer-one output times `x7`. -/
theorem pass1_hi : extractStridedSlice S50000x32 ![0, 32]
      (prod1 (Cert.ReferenceIdeal.ReadP.val_main_v14 (F := Ideal) x0 x1 x2) (Cert.ReferenceIdeal.ReadP.val_main_v31 (F := Ideal) x0 x4) (degCol x1)
        (shapeCast S1x64 x3 shapeCasts_S64_S1x64) (weights2 x5 x7)) slices_S50000x64_S50000x32_0_32
    = Cert.ReferenceIdeal.ReadP.val_main_v60 (F := Ideal) x0 x1 x2 x3 x4 x7 := by
  funext i
  obtain ⟨r, k, rfl⟩ : ∃ (r : Fin 50000) (k : Fin 32), i = ix2 r k := ⟨i 0, i 1, eq_ix2 i⟩
  refine (cols_at 32 _ _ r k ⟨32 + k.val, by have := k.isLt; omega⟩ rfl).trans ?_
  rw [Cert.Sage.Ref.v60_at x0 x1 x2 x3 x4 x7 r k]
  show ∑ q : Fin 64, ((Cert.ReferenceIdeal.ReadP.val_main_v14 (F := Ideal) x0 x1 x2 (ix2 r q) * degCol x1 (ix2 r 0)
      + shapeCast S1x64 x3 shapeCasts_S64_S1x64 (ix2 0 q)) + Cert.ReferenceIdeal.ReadP.val_main_v31 (F := Ideal) x0 x4 (ix2 r q)) * weights2 x5 x7 (ix2 q _) = _
  refine Finset.sum_congr rfl fun q _ => ?_
  rw [mix1_at]
  unfold weights2
  have hs := side_right x5 x7 concatenates_S64x32_S64x32_S64x64_d1 q k ⟨32 + k.val, by have := k.isLt; omega⟩ rfl
  rw [hs]

/-! ## The third pass -/

/-- The third pass's output is the reference's result. -/
theorem pass2 : out2 (Cert.ReferenceIdeal.ReadP.val_main_v43 (F := Ideal) x0 x1 x2 x3 x4 x5) (Cert.ReferenceIdeal.ReadP.val_main_v60 (F := Ideal) x0 x1 x2 x3 x4 x7)
      (degCol x1) (shapeCast S1x32 x6 shapeCasts_S32_S1x32)
    = Cert.ReferenceIdeal.ReadP.val_main_v63 (F := Ideal) x0 x1 x2 x3 x4 x5 x6 x7 := by
  funext i
  obtain ⟨r, j, rfl⟩ : ∃ (r : Fin 50000) (j : Fin 32), i = ix2 r j := ⟨i 0, i 1, eq_ix2 i⟩
  rw [Cert.Sage.Ref.v63_at x0 x1 x2 x3 x4 x5 x6 x7 r j]
  show logSoftmaxRow (fun c : Fin 32 => max ((Cert.ReferenceIdeal.ReadP.val_main_v43 (F := Ideal) x0 x1 x2 x3 x4 x5 (ix2 r c) * degCol x1 (ix2 r 0)
      + shapeCast S1x32 x6 shapeCasts_S32_S1x32 (ix2 0 c)) + Cert.ReferenceIdeal.ReadP.val_main_v60 (F := Ideal) x0 x1 x2 x3 x4 x7 (ix2 r c)) zeroW) j = _
  refine congrArg (logSoftmaxRow · j) (funext fun c => ?_)
  rw [degCol_at, row_at, Cert.Sage.Ref.v62_at x0 x1 x2 x3 x4 x5 x6 x7 r c]
  exact congrArg (max · zeroW) (mixMul_eq_mixDiv _ _ _ _ (Cert.Sage.Ref.deg_real x1 r))

end Cert.Sage.Bridge

end
-- ==== Proof.KValue.lean ====
/-
  The result array of the idealized kernel is the reference's result stage of the launch contents.

  Boundary by boundary: the first pass leaves the product of the features with the two first-layer weight
  matrices side by side; its two halves are the reference's two first-layer products, and the aggregation of
  the message half is the reference's; the second pass leaves the mixed layer-one rows times the two
  second-layer matrices side by side, whose halves are the reference's two second-layer products; the third
  pass leaves the log-soft-max of the rectified mixed layer-two rows, the reference's result.
-/
import proofs.«125611_j42296837931009_2_alg».proof.Proof.Bridge

set_option maxRecDepth 16384

noncomputable section

namespace Cert.Sage.Value

open Cert.KernelIdeal Cert.KernelIdeal.Gen Cert.KernelIdeal.Pass Cert.KernelIdeal.Host Cert.Sage
open Idealize.ShloMosaic Idealize.ShloMosaic.TcCoe Idealize.SL.Sem Idealize.ShloMosaic.ValueIdx

variable (m : (ℓ : Loc nD τ sig) → Buf (Elt Ideal) ℓ) (ρ : Dev nD → PrngReg)

/-- After the first pass: features times the first-layer weights side by side. -/
theorem W4_v17 (c : Dev nD) : W4 m ρ c (Proc.devRef .tc main_v17) = prod0 (a0 m c) (weights1 (a2 m c) (a4 m c)) := by
  refine (W4_arr m ρ c 2).trans ?_
  rw [final0 (V3 m ρ) c]
  show prod0 (W3 m ρ c (Proc.devRef .tc main_arg0)) (W3 m ρ c (Proc.devRef .tc main_v16)) = _
  rw [W3_arg0, W3_v16]

theorem W5_agg (c : Dev nD) : W5 m ρ c (Proc.devRef .tc main_v29)
    = Cert.ReferenceIdeal.ReadP.val_main_v14 (F := Ideal) (a0 m c) (a1 m c) (a2 m c) := by
  rw [W5_v29, W4_v17, Bridge.pass0_lo, Bridge.aggregate64_eq]

theorem W5_self (c : Dev nD) : W5 m ρ c (Proc.devRef .tc main_v19) = Cert.ReferenceIdeal.ReadP.val_main_v31 (F := Ideal) (a0 m c) (a4 m c) := by
  rw [W5_v19, W4_v17, Bridge.pass0_hi]

/-- After the second pass: the mixed layer-one rows times the second-layer weights side by side. -/
theorem W6_v32 (c : Dev nD) : W6 m ρ c (Proc.devRef .tc main_v32)
    = prod1 (Cert.ReferenceIdeal.ReadP.val_main_v14 (F := Ideal) (a0 m c) (a1 m c) (a2 m c)) (Cert.ReferenceIdeal.ReadP.val_main_v31 (F := Ideal) (a0 m c) (a4 m c))
        (degCol (a1 m c)) (shapeCast S1x64 (a3 m c) shapeCasts_S64_S1x64) (weights2 (a5 m c) (a7 m c)) := by
  refine (W6_arr m ρ c 5).trans ?_
  rw [final1 (V5 m ρ) c]
  show prod1 (W5 m ρ c (Proc.devRef .tc main_v29)) (W5 m ρ c (Proc.devRef .tc main_v19)) (W5 m ρ c (Proc.devRef .tc main_v15))
    (W5 m ρ c (Proc.devRef .tc main_v30)) (W5 m ρ c (Proc.devRef .tc main_v31)) = _
  rw [W5_agg, W5_self, W5_v15, W5_v30, W5_v31]

theorem W7_agg (c : Dev nD) : W7 m ρ c (Proc.devRef .tc main_v44)
    = Cert.ReferenceIdeal.ReadP.val_main_v43 (F := Ideal) (a0 m c) (a1 m c) (a2 m c) (a3 m c) (a4 m c) (a5 m c) := by
  rw [W7_v44, W6_v32, Bridge.pass1_lo, Bridge.aggregate32_eq]

theorem W7_self (c : Dev nD) : W7 m ρ c (Proc.devRef .tc main_v34)
    = Cert.ReferenceIdeal.ReadP.val_main_v60 (F := Ideal) (a0 m c) (a1 m c) (a2 m c) (a3 m c) (a4 m c) (a7 m c) := by
  rw [W7_v34, W6_v32, Bridge.pass1_hi]

/-- After the third pass the result array holds the reference's result stage of the launch contents. -/
theorem result (c : Dev nD) : W8 m ρ c (Proc.devRef .tc main_v46)
    = Cert.ReferenceIdeal.ReadP.val_main_v63 (F := Ideal) (a0 m c) (a1 m c) (a2 m c) (a3 m c) (a4 m c) (a5 m c) (a6 m c) (a7 m c) := by
  refine (W8_arr m ρ c 4).trans ?_
  rw [final2 (V7 m ρ) c]
  show out2 (W7 m ρ c (Proc.devRef .tc main_v44)) (W7 m ρ c (Proc.devRef .tc main_v34)) (W7 m ρ c (Proc.devRef .tc main_v15))
    (W7 m ρ c (Proc.devRef .tc main_v45)) = _
  rw [W7_agg, W7_self, W7_v15, W7_v45, Bridge.pass2]

end Cert.Sage.Value

end
-- ==== Proof.LibAfterAppend.lean ====
/-
  Folding a list of host operations over a valuation, one stretch after another.

  `StableHlo.after ops W` folds each operation's result into the valuation `W` in order; folding a concatenation
  is folding the first stretch and then the second over what it leaves. This lets a long program be read in
  stretches, each against an arbitrary starting valuation.
-/
import Idealize.ShloMosaic.Lib.StableHlo.Run

namespace Cert.LibAfterAppend

open Idealize.ShloMosaic Idealize.ShloMosaic.StableHlo

/-- Folding two stretches of operations one after the other is folding their concatenation. -/
theorem after_concat {τ : Topo} {sig : RefSig} {Val : EltTy → Type} (l₁ l₂ : List (HloOp τ sig Val)) (W : Valuation τ sig Val) :
    after (l₁ ++ l₂) W = after l₂ (after l₁ W) := by
  induction l₁ generalizing W with
  | nil => rfl
  | cons op l ih => exact ih _

/-- A list cut at `k`: folding it is folding the first `k` operations, then the rest. -/
theorem after_take_drop {τ : Topo} {sig : RefSig} {Val : EltTy → Type} (k : Nat) (l : List (HloOp τ sig Val)) (W : Valuation τ sig Val) :
    after l W = after (l.drop k) (after (l.take k) W) := by
  rw [← after_concat, List.take_append_drop]

end Cert.LibAfterAppend
-- ==== Proof.RefStages.lean ====
/-
  The reference program's fold of its 102 operations is its last composed stage.

  The run of the reference states the result buffer as the fold of the operation list over the launch
  contents; the stage functions state each operation's value as a function of the argument arrays. The two
  agree, and the agreement is read here in three stretches of the list, each over an ARBITRARY starting
  valuation that is only known at the few buffers the stretch reads from before it:

  * operations 0 … 43: the first layer (the edge endpoints, the neighbour sum and the degree by accumulating
    scatters, their quotient where the degree is positive, the bias, the root term), ending with the layer's
    output; the two endpoint vectors stay where they were written, and the three arguments of the second
    layer are not written at all;
  * operations 44 … 83: the second layer, the same shape one width down, ending with its output;
  * operations 84 … 101: the positive part and the row-wise logarithm of the softmax.

  Inside a stretch each outlined function's operations carry their values to the buffer's own type and back;
  a value written and then read through the same typed reference has the two transports cancel, and the
  remaining ones (where a typed operation meets an untyped one) are identities by computation. A stage named
  in a hypothesis stays folded on both sides of the final comparison, so each comparison only unfolds the
  stages of its own stretch.

  Folding the whole list is folding the three stretches one after another, each over what the one before
  leaves, and the launch contents at an argument's buffer are the memory's at that argument.
-/
import proofs.«125611_j42296837931009_2_alg».proof.Proof.RefRunP
import proofs.«125611_j42296837931009_2_alg».proof.Proof.RefReadP
import proofs.«125611_j42296837931009_2_alg».proof.Proof.LibAfterAppend
import proofs.«125611_j42296837931009_2_alg».proof.Proof.LibHostReads

noncomputable section

namespace Cert.Sage.Stages

open Cert.ReferenceIdeal Cert.ReferenceIdeal.Gen Idealize.ShloMosaic Idealize.ShloMosaic.TcCoe Idealize.SL.Sem Idealize.ShloMosaic.StableHlo

variable {F : FTy → Type} [FloatOps F]

/-! ## The first stretch: operations 0 … 43 -/

/-- After the first stretch the first layer's output buffer holds the layer's stage of the five arguments
    the stretch reads. -/
theorem stretchA_v32 (U : Valuation τ sig (Elt F)) (x0 : (⟨S50000x1433, .f32⟩ : BufTy).Contents (Elt F)) (x1 : (⟨S2x800000, .i32⟩ : BufTy).Contents (Elt F)) (x2 : (⟨S1433x64, .f32⟩ : BufTy).Contents (Elt F)) (x3 : (⟨S64, .f32⟩ : BufTy).Contents (Elt F)) (x4 : (⟨S1433x64, .f32⟩ : BufTy).Contents (Elt F))
    (h0 : U (Proc.devRef .tc main_arg0) = x0) (h1 : U (Proc.devRef .tc main_arg1) = x1)
    (h2 : U (Proc.devRef .tc main_arg2) = x2) (h3 : U (Proc.devRef .tc main_arg3) = x3)
    (h4 : U (Proc.devRef .tc main_arg4) = x4) :
    StableHlo.after (List.take 44 (ValueP.ops (F := F))) U (Proc.devRef .tc main_v32) = ReadP.val_main_v32 x0 x1 x2 x3 x4 := by
  simp only [ValueP.ops, List.take_succ_cons, List.take_zero, List.drop_succ_cons, List.drop_zero]
  after_results_simp
  simp only [Cert.LibHostReads.ofBuf_toBuf, h0, h1, h2, h3, h4]
  rfl

/-- After the first stretch the source-endpoint vector is still the first row of the edge list. -/
theorem stretchA_v1 (U : Valuation τ sig (Elt F)) (x1 : (⟨S2x800000, .i32⟩ : BufTy).Contents (Elt F))
    (h1 : U (Proc.devRef .tc main_arg1) = x1) :
    StableHlo.after (List.take 44 (ValueP.ops (F := F))) U (Proc.devRef .tc main_v1) = ReadP.val_main_v1 x1 := by
  simp only [ValueP.ops, List.take_succ_cons, List.take_zero, List.drop_succ_cons, List.drop_zero]
  after_results_simp
  simp only [h1]
  rfl

/-- After the first stretch the target-endpoint vector is still the second row of the edge list. -/
theorem stretchA_v3 (U : Valuation τ sig (Elt F)) (x1 : (⟨S2x800000, .i32⟩ : BufTy).Contents (Elt F))
    (h1 : U (Proc.devRef .tc main_arg1) = x1) :
    StableHlo.after (List.take 44 (ValueP.ops (F := F))) U (Proc.devRef .tc main_v3) = ReadP.val_main_v3 x1 := by
  simp only [ValueP.ops, List.take_succ_cons, List.take_zero, List.drop_succ_cons, List.drop_zero]
  after_results_simp
  simp only [h1]
  rfl

/-- The first stretch writes none of the second layer's three arguments. -/
theorem stretchA_arg5 (U : Valuation τ sig (Elt F)) :
    StableHlo.after (List.take 44 (ValueP.ops (F := F))) U (Proc.devRef .tc main_arg5) = U (Proc.devRef .tc main_arg5) := by
  simp only [ValueP.ops, List.take_succ_cons, List.take_zero, List.drop_succ_cons, List.drop_zero]
  after_results_simp

@[inherit_doc stretchA_arg5]
theorem stretchA_arg6 (U : Valuation τ sig (Elt F)) :
    StableHlo.after (List.take 44 (ValueP.ops (F := F))) U (Proc.devRef .tc main_arg6) = U (Proc.devRef .tc main_arg6) := by
  simp only [ValueP.ops, List.take_succ_cons, List.take_zero, List.drop_succ_cons, List.drop_zero]
  after_results_simp

@[inherit_doc stretchA_arg5]
theorem stretchA_arg7 (U : Valuation τ sig (Elt F)) :
    StableHlo.after (List.take 44 (ValueP.ops (F := F))) U (Proc.devRef .tc main_arg7) = U (Proc.devRef .tc main_arg7) := by
  simp only [ValueP.ops, List.take_succ_cons, List.take_zero, List.drop_succ_cons, List.drop_zero]
  after_results_simp

/-! ## The middle stretch: operations 44 … 83 -/

/-- From any valuation that holds the first layer's output, the two endpoint vectors and the second layer's
    three arguments, the middle stretch leaves the second layer's stage at its output buffer. -/
theorem stretchB (U : Valuation τ sig (Elt F)) (x0 : (⟨S50000x1433, .f32⟩ : BufTy).Contents (Elt F)) (x1 : (⟨S2x800000, .i32⟩ : BufTy).Contents (Elt F)) (x2 : (⟨S1433x64, .f32⟩ : BufTy).Contents (Elt F)) (x3 : (⟨S64, .f32⟩ : BufTy).Contents (Elt F)) (x4 : (⟨S1433x64, .f32⟩ : BufTy).Contents (Elt F)) (x5 : (⟨S64x32, .f32⟩ : BufTy).Contents (Elt F)) (x6 : (⟨S32, .f32⟩ : BufTy).Contents (Elt F)) (x7 : (⟨S64x32, .f32⟩ : BufTy).Contents (Elt F))
    (h32 : U (Proc.devRef .tc main_v32) = ReadP.val_main_v32 x0 x1 x2 x3 x4)
    (h1 : U (Proc.devRef .tc main_v1) = ReadP.val_main_v1 x1)
    (h3 : U (Proc.devRef .tc main_v3) = ReadP.val_main_v3 x1)
    (h5 : U (Proc.devRef .tc main_arg5) = x5)
    (h6 : U (Proc.devRef .tc main_arg6) = x6)
    (h7 : U (Proc.devRef .tc main_arg7) = x7) :
    StableHlo.after (List.take 40 (List.drop 44 (ValueP.ops (F := F)))) U (Proc.devRef .tc main_v61) = ReadP.val_main_v61 x0 x1 x2 x3 x4 x5 x6 x7 := by
  simp only [ValueP.ops, List.take_succ_cons, List.take_zero, List.drop_succ_cons, List.drop_zero]
  after_results_simp
  simp only [Cert.LibHostReads.ofBuf_toBuf, h32, h1, h3, h5, h6, h7]
  rfl

/-! ## The last stretch: operations 84 … 101 -/

/-- From any valuation that holds the second layer's output, the last stretch (the positive part, then each
    row minus its maximum, minus the logarithm of the row's sum of exponentials) leaves the last stage at the
    result buffer. -/
theorem stretchC (U : Valuation τ sig (Elt F)) (x0 : (⟨S50000x1433, .f32⟩ : BufTy).Contents (Elt F)) (x1 : (⟨S2x800000, .i32⟩ : BufTy).Contents (Elt F)) (x2 : (⟨S1433x64, .f32⟩ : BufTy).Contents (Elt F)) (x3 : (⟨S64, .f32⟩ : BufTy).Contents (Elt F)) (x4 : (⟨S1433x64, .f32⟩ : BufTy).Contents (Elt F)) (x5 : (⟨S64x32, .f32⟩ : BufTy).Contents (Elt F)) (x6 : (⟨S32, .f32⟩ : BufTy).Contents (Elt F)) (x7 : (⟨S64x32, .f32⟩ : BufTy).Contents (Elt F))
    (h61 : U (Proc.devRef .tc main_v61) = ReadP.val_main_v61 x0 x1 x2 x3 x4 x5 x6 x7) :
    StableHlo.after (List.drop 40 (List.drop 44 (ValueP.ops (F := F)))) U (Proc.devRef .tc main_v63) = ReadP.val_main_v63 x0 x1 x2 x3 x4 x5 x6 x7 := by
  simp only [ValueP.ops, List.take_succ_cons, List.take_zero, List.drop_succ_cons, List.drop_zero]
  after_results_simp
  simp only [Cert.LibHostReads.ofBuf_toBuf, h61]
  rfl

/-! ## The whole fold -/

/-- The fold of the 102 operations over the launch contents, read at the result buffer, is the last composed
    stage of the eight arguments as the memory holds them at launch. -/
theorem fold_eq (m : (ℓ : Loc nD τ sig) → Buf (Elt F) ℓ) (c : Dev nD) :
    ValueP.res_main_v63 (F := F) m c
      = ReadP.val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold ValueP.res_main_v63
  rw [Cert.LibAfterAppend.after_take_drop 44 (ValueP.ops (F := F)),
    Cert.LibAfterAppend.after_take_drop 40 (List.drop 44 (ValueP.ops (F := F)))]
  exact stretchC _ _ _ _ _ _ _ _ _
    (stretchB _ _ _ _ _ _ _ _ _
      (stretchA_v32 _ _ _ _ _ _ rfl rfl rfl rfl rfl) (stretchA_v1 _ _ rfl) (stretchA_v3 _ _ rfl)
      ((stretchA_arg5 _).trans rfl) ((stretchA_arg6 _).trans rfl) ((stretchA_arg7 _).trans rfl))

end Cert.Sage.Stages

end
-- ==== Proof.lean ====
/-
  The certificate of a two-layer mean-aggregation graph network: a tiled device program against its array reference.

  Both programs compute, for node features `x` and an edge list, two layers of "average the neighbours' projected
  messages, add a bias and the node's own projection", then a rectifier and a row-wise log-soft-max. The device
  program runs three passes over tiles of 2000 node rows — a product with the two first-layer weight matrices side
  by side; the layer-one mix followed by a product with the two second-layer matrices side by side; the layer-two
  mix, rectifier and log-soft-max — with the gathers and the additions along the edges between the passes, and it
  multiplies the aggregated messages by a reciprocal-degree column where the reference divides them by the degree.
  On the extended reals the two agree: a product with two matrices side by side is the two products side by side, the
  passes' tiles cover the rows, and for a real degree `d ≥ 1` multiplying by `1/d` is dividing by `d`, while where
  the degree is zero both give zero. No finiteness of the inputs is used.

  The frames of the two device programs are the generated ones; the reference's run is its operation list folded
  over the launch contents; `preserves` has no conjunct (the idealization rewrote nothing).
-/
import proofs.«125611_j42296837931009_2_alg».proof.Defs
import proofs.«125611_j42296837931009_2_alg».proof.Proof.Gen.Kernel
import proofs.«125611_j42296837931009_2_alg».proof.Proof.Gen.Kernel.Frame
import proofs.«125611_j42296837931009_2_alg».proof.Proof.Gen.KernelIdeal
import proofs.«125611_j42296837931009_2_alg».proof.Proof.Gen.KernelIdeal.Frame
import proofs.«125611_j42296837931009_2_alg».proof.Proof.Gen.ReferenceIdeal
import proofs.«125611_j42296837931009_2_alg».proof.Proof.Gen.Pre_finite_inputs
import proofs.«125611_j42296837931009_2_alg».proof.Proof.KernelRun
import proofs.«125611_j42296837931009_2_alg».proof.Proof.KValue
import proofs.«125611_j42296837931009_2_alg».proof.Proof.RefRunP
import proofs.«125611_j42296837931009_2_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the reference's result stage of the (agreeing) argument arrays. -/
theorem algebraic : Cert.algebraic_KernelIdeal_ReferenceIdeal := by
  intro m ρ m' ρ' _ hagree
  refine ⟨fun c => Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Sage.Value.result m ρ c), (h c).2⟩) (Cert.KernelIdeal.Whole.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Sage.Stages.fold_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
